-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512x1 : Shape := ⟨4, ![4, 4096, 512, 1]⟩
abbrev S512x64 : Shape := ⟨2, ![512, 64]⟩
abbrev S_ : Shape := ⟨0, ![]⟩

class Facts : Prop where
  bcast_S_S4x4096x512x1 : S_.BroadcastsInDim S4x4096x512x1 (![] : Fin 0 → Fin S4x4096x512x1.rank)
  reducesTo_S4x4096x512x1_S_d0_1_2_3 : S4x4096x512x1.ReducesTo [0, 1, 2, 3] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  main_v18

def fn {F : FTy → Type} [FloatOps F] (main_arg0 : FVec F S4x4096x512x1 .f32) (main_arg1 : FVec F S512x64 .f32) (main_arg2 : FVec F S512x64 .f32) (main_arg3 : FVec F S512x64 .f32) : IVec S_ 1 :=
  let main_v0 : FVec F S4x4096x512x1 .f32 := Host.absf main_arg0
  let main_cst : FVec F S_ .f32 := constant S_ .f32 0x7F800000#32
  let main_v1 : FVec F S4x4096x512x1 .f32 := broadcastInDim S4x4096x512x1 ![] bcast_S_S4x4096x512x1 main_cst
  let main_v2 : IVec S4x4096x512x1 1 := cmpf .olt main_v0 main_v1
  let main_c : IVec S_ 1 := constantI S_ 1 1#1
  let main_v3 : IVec S_ 1 := (fun x v => Host.reduce IntOp.andi x v reducesTo_S4x4096x512x1_S_d0_1_2_3 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_v13 main_v16
-- ==== Kernel.lean ====
abbrev S4x4096x512x1 : Shape := ⟨4, ![4, 4096, 512, 1]⟩
abbrev S512x64 : Shape := ⟨2, ![512, 64]⟩
abbrev S16384x512 : Shape := ⟨2, ![16384, 512]⟩
abbrev S16384x64 : Shape := ⟨2, ![16384, 64]⟩
abbrev S2048x512 : Shape := ⟨2, ![2048, 512]⟩
abbrev S2048x64 : Shape := ⟨2, ![2048, 64]⟩
abbrev S4x4096x64 : Shape := ⟨3, ![4, 4096, 64]⟩
abbrev S1x1024x64 : Shape := ⟨3, ![1, 1024, 64]⟩
abbrev S1024x64 : Shape := ⟨2, ![1024, 64]⟩
abbrev S1024x1024 : Shape := ⟨2, ![1024, 1024]⟩

abbrev nBuf : Space → Nat
  | .hbm => 12
  | .vmem => 20
  | .smem => 0
  | _ => 0

abbrev bufTy : (tb : Table) → Fin (tcTables nBuf tb) → BufTy
  | .hbm, ⟨0, _⟩ => ⟨S4x4096x512x1, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S16384x512, .f32⟩
  | .hbm, ⟨5, _⟩ => ⟨S16384x64, .bf16⟩
  | .hbm, ⟨6, _⟩ => ⟨S16384x64, .bf16⟩
  | .hbm, ⟨7, _⟩ => ⟨S16384x64, .bf16⟩
  | .hbm, ⟨8, _⟩ => ⟨S4x4096x64, .bf16⟩
  | .hbm, ⟨9, _⟩ => ⟨S4x4096x64, .bf16⟩
  | .hbm, ⟨10, _⟩ => ⟨S4x4096x64, .bf16⟩
  | .hbm, ⟨11, _⟩ => ⟨S4x4096x64, .f32⟩
  | .local _ .vmem, ⟨0, _⟩ => ⟨S2048x512, .f32⟩
  | .local _ .vmem, ⟨1, _⟩ => ⟨S2048x512, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S2048x64, .bf16⟩
  | .local _ .vmem, ⟨6, _⟩ => ⟨S2048x64, .bf16⟩
  | .local _ .vmem, ⟨7, _⟩ => ⟨S2048x64, .bf16⟩
  | .local _ .vmem, ⟨8, _⟩ => ⟨S2048x64, .bf16⟩
  | .local _ .vmem, ⟨9, _⟩ => ⟨S2048x64, .bf16⟩
  | .local _ .vmem, ⟨10, _⟩ => ⟨S2048x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x1024x64, .f32⟩
  | .local _ .vmem, ⟨18, _⟩ => ⟨S1x1024x64, .f32⟩
  | .local _ .vmem, ⟨19, _⟩ => ⟨S1024x64, .f32⟩
  | _, _ => ⟨S4x4096x512x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_14 : BitVec 32 := 0#32
  let v20 : BitVec 1 := Scalar.cmpi .ne v19 c0_i32_14
  v20

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x4096x512x1_S16384x512 : S4x4096x512x1.ShapeCasts S16384x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  shapeCasts_S16384x64_S4x4096x64 : S16384x64.ShapeCasts S4x4096x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S2048x512_S512x64_S2048x64_1_0_0_1_n_n_wf : DotDims.WF S2048x512 S512x64 S2048x64 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .bf16 = 32 ∨ (Rect.block (s := S16384x64) S2048x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S16384x64.size a
  hwx0_5 : ∀ i : grid0.Coords, EltTy.bits .bf16 = 32 ∨ (Rect.block (s := S16384x64) S2048x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x64.size a ≤ S16384x64.size a
  hwx0_6 : ∀ i : grid0.Coords, EltTy.bits .bf16 = 32 ∨ (Rect.block (s := S16384x64) S2048x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S4x4096x64.size a
  hwx1_1 : ∀ i : grid1.Coords, EltTy.bits .bf16 = 32 ∨ (Rect.block (s := S4x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .bf16 = 32 ∨ (Rect.block (s := S4x4096x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S2048x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S2048x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x512x1 : Shape := ⟨4, ![4, 4096, 512, 1]⟩
abbrev S512x64 : Shape := ⟨2, ![512, 64]⟩
abbrev S_ : Shape := ⟨0, ![]⟩
abbrev S4x4096x512 : Shape := ⟨3, ![4, 4096, 512]⟩
abbrev S4x4096x64 : Shape := ⟨3, ![4, 4096, 64]⟩
abbrev S4x4096x4096 : Shape := ⟨3, ![4, 4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x512x1, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x4096x512x1, .f32⟩
  | .hbm, ⟨8, _⟩ => ⟨S4x4096x512x1, .f32⟩
  | .hbm, ⟨9, _⟩ => ⟨S_, .f32⟩
  | .hbm, ⟨10, _⟩ => ⟨S4x4096x512x1, .f32⟩
  | .hbm, ⟨11, _⟩ => ⟨S4x4096x512x1, .f32⟩
  | .hbm, ⟨12, _⟩ => ⟨S4x4096x512, .f32⟩
  | .hbm, ⟨13, _⟩ => ⟨S4x4096x64, .f32⟩
  | .hbm, ⟨14, _⟩ => ⟨S4x4096x64, .f32⟩
  | .hbm, ⟨15, _⟩ => ⟨S4x4096x64, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x64, .f32⟩
  | _, _ => ⟨S4x4096x512x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  bcast_S_S4x4096x512x1 : S_.BroadcastsInDim S4x4096x512x1 (![] : Fin 0 → Fin S4x4096x512x1.rank)
  shapeCasts_S4x4096x512x1_S4x4096x512 : S4x4096x512x1.ShapeCasts S4x4096x512
  bcast_S_S4x4096x4096 : S_.BroadcastsInDim S4x4096x4096 (![] : Fin 0 → Fin S4x4096x4096.rank)
  dot_S4x4096x512_S512x64_S4x4096x64_2_0_01_1_n_n_wf : DotDims.WF S4x4096x512 S512x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x512_S512x64_S4x4096x64_2_0_01_1_n_n : DotDims S4x4096x512 S512x64 S4x4096x64 where
  lhsContracting := [2]
  rhsContracting := [0]
  lhsNonContracting := [0, 1]
  rhsNonContracting := [1]
  lhsBatch := []
  rhsBatch := []
  wf := dot_S4x4096x512_S512x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KBProj.lean ====
/- Region 0 of the program's @main: the projection kernel (custom_call 0) as a pipeline body.
   Everything is stated at a parameter `V`, the TensorCore's buffer contents when the region is entered, and for any
   float interpretation `F`: each window's block at a grid point, what the body leaves in each of the three output
   staging buffers (one whole-buffer store each, of a payload of the input blocks), the body's triple, the pipeline's
   proof data and its body obligation. -/
import proofs.«140186_j41360535061095_1_alg».proof.Proof.Gen.Kernel.Launch
import proofs.«140186_j41360535061095_1_alg».proof.Proof.Gen.Kernel.Skeleton
import proofs.«140186_j41360535061095_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations, a new row block at every point): its current staging buffer holds its block at
    every point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the first weight matrix, whole, the same block at every point so fetched at the first point
    only): where it is not fetched the block index has not moved and the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the second weight matrix), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the third weight matrix), likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rX0 : Rect S2048x512 := Rect.unit (s := S2048x512) ![0, 0] S2048x512.size inb_S2048x512_S2048x512_0_0
abbrev rW0 : Rect S512x64 := Rect.unit (s := S512x64) ![0, 0] S512x64.size inb_S512x64_S512x64_0_0
abbrev rO0 : Rect S2048x64 := Rect.unit (s := S2048x64) ![0, 0] S2048x64.size inb_S2048x64_S2048x64_0_0

/-! ## What the body leaves in each output window's buffer -/

/-- Window 4's staging buffer after the body, from the activation block and the first weight matrix: its one
    store, of the whole buffer, as a one-piece list. -/
def projOut4 (x0 : Vec F S2048x512 .f32) (x1 : Vec F S512x64 .f32) : Vec F S2048x64 .bf16 :=
  View.canon [⟨rO0, k0_pay2 (View.ld x0 rX0) (View.ld x1 rW0)⟩]

/-- Window 5's, from the activation block and the second weight matrix. -/
def projOut5 (x0 : Vec F S2048x512 .f32) (x2 : Vec F S512x64 .f32) : Vec F S2048x64 .bf16 :=
  View.canon [⟨rO0, k0_pay3 (View.ld x0 rX0) (View.ld x2 rW0)⟩]

/-- Window 6's, from the activation block and the third weight matrix. -/
def projOut6 (x0 : Vec F S2048x512 .f32) (x3 : Vec F S512x64 .f32) : Vec F S2048x64 .bf16 :=
  View.canon [⟨rO0, k0_pay4 (View.ld x0 rX0) (View.ld x3 rW0)⟩]

/-- The one store is of the whole buffer, so it covers it (the tiling checked by evaluation). -/
theorem coverO0 (p0 : Vec F S2048x64 .bf16) (y : S2048x64.Idx) :
    ∃ pc ∈ ([⟨rO0, p0⟩] : List (View.Piece (Elt F) S2048x64 .bf16)), y ∈ pc.1.set :=
  View.cover_of_tiled [⟨rO0, p0⟩] S2048x64.size (by rfl) y

/-! ## The body's triple -/

set_option maxHeartbeats 1000000 in
/-- The kernel body on whole staging memrefs, the four inputs' at read contents `x0 … x3` and the three outputs' at
    anything, runs to the continuation holding the inputs' as they were and each output's at its projection of the
    inputs': each output buffer is read once (the value unused) and then stored whole. -/
theorem sound_kernel0 (c : Dev nD) (E : Set ℕ) (i : grid0.Coords)
    (arg1 : Memref sig .tc .vmem S2048x512 .f32) (harg1 : arg1.IsWhole)
    (arg2 : Memref sig .tc .vmem S512x64 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S2048x64 .bf16) (harg5 : arg5.IsWhole)
    (arg6 : Memref sig .tc .vmem S2048x64 .bf16) (harg6 : arg6.IsWhole)
    (arg7 : Memref sig .tc .vmem S2048x64 .bf16) (harg7 : arg7.IsWhole)
    (x0 : Vec F S2048x512 .f32) (x1 x2 x3 : Vec F S512x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (projOut4 x0 x1) ∗ owns (c : Thread nD τ) arg6 fullShare (projOut5 x0 x2)
            ∗ owns (c : Thread nD τ) arg7 fullShare (projOut6 x0 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO0 _)
  isplitl [H5]
  · iexists _; isplitr
    swap; · iexact H5
    ipureintro
    exact View.read_writes_eq_canon _ _ _ (coverO0 _)
  iexists _; isplitr
  swap; · iexact H6
  ipureintro
  exact View.read_writes_eq_canon _ _ _ (coverO0 _)

/-! ## The pipeline's proof data -/

/-- The proof data of pipeline 0 on core `c`: the arrays as the region finds them (`V`); after the body at point
    `t` each input's buffer at its block and each output's at its projection of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => projOut4 (iblk0 V c 0 t) (iblk0 V c 1 t)
    | ⟨5, _⟩ => projOut5 (iblk0 V c 0 t) (iblk0 V c 2 t)
    | ⟨6, _⟩ => projOut6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = projOut4 (iblk0 V c 0 t) (iblk0 V c 1 t) := by dsimp only [dat0]
theorem after0_5 (c : Dev nD) (t : Fin cfg0.N) : (dat0 V c).after 5 t = projOut5 (iblk0 V c 0 t) (iblk0 V c 2 t) := by dsimp only [dat0]
theorem after0_6 (c : Dev nD) (t : Fin cfg0.N) : (dat0 V c).after 6 t = projOut6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the library's body obligation's precondition, the seven windows one
    by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBAttnBase.lean ====
/-
  The attention region of the kernel program: per key tile the body adds sigmoid(q kᵀ) v into an accumulator that
  lives in a scratch buffer across the grid's innermost (key-tile) axis, zeroing it at the first tile and copying it to
  the output block at the last. This module fixes what the three control cases share: each window's block at a
  point as read off the arrays the region finds, the two branch conditions in closed form over the 64 grid points
  (the key-tile coordinate is the point's number mod 4), where the output window is idle, and the region's
  invariant split into the accumulator's buffer, the other scoped buffers and the generator register.
-/
import proofs.«140186_j41360535061095_1_alg».proof.Proof.Gen.Kernel.Launch
import proofs.«140186_j41360535061095_1_alg».proof.Proof.Gen.Kernel.Skeleton
import proofs.«140186_j41360535061095_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t` of the attention region, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's query block, whether or not the point fetched it
    (between two fetches the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the key window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions -/

/-- "This is the first key tile" (the accumulator is zeroed): the body's first condition over the grid coordinates. -/
abbrev cond1_0 (i : grid1.Coords) : Prop := (Scalar.cmpi .ne (Scalar.extui (Scalar.cmpi .eq (BitVec.ofNat 32 (i 2).val) 0#32)) 0#32) = 1#1
/-- It holds exactly at the points whose number is 0 mod 4. -/
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last key tile" (the accumulator is copied out): the body's second condition. -/
abbrev cond1_1 (i : grid1.Coords) : Prop := k1_cond2 i = 1#1
/-- It holds exactly at the points whose number is 3 mod 4. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Away from the last key tile the body stores nothing into the output block: the window is idle there, -/
theorem idleAt1_3 : ∀ t : Fin cfg1.N, ¬cond1_1 (grid1.coords t) → cfg1.idle 3 (grid1.coords t) = true := by decide +kernel
/-- and the block is not written back there; -/
theorem noFlush1_3 : ∀ t : Fin cfg1.N, ¬cond1_1 (grid1.coords t) → (cfg1.win 3).flush t = false := by decide +kernel
/-- at the last key tile it is live. -/
theorem liveAt1_3 : ∀ t : Fin cfg1.N, cond1_1 (grid1.coords t) → cfg1.idle 3 (grid1.coords t) = false := by decide +kernel

/-! ## The memrefs the body is called with -/

abbrev VO1_3 : View sig .tc .vmem S1x1024x64 .f32 := (Memref.whole cc1_stg3_0 : Memref sig .tc .vmem S1x1024x64 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The accumulator's scratch buffer, whole. -/
abbrev scM1 : Memref sig .tc .vmem S1024x64 .f32 := Memref.whole cc1_scratch0
abbrev VS1 : View sig .tc .vmem S1024x64 .f32 := scM1.view

/-! ## The class invariant, with the accumulator's buffer split off -/

/-- The scoped buffers the attention body never touches (the projection region's staging buffers), each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The region's class invariant hands over the accumulator's buffer at some contents, the untouched buffers and the generator register, -/
theorem PhiA1_split (c : Dev nD) :
    (Pipeline.ΦA spec1 c : sProp 𝕄) ⊢ iprop(others1 c ∗ (∃ d, owns (c : Thread nD τ) scM1 fullShare d) ∗ (∃ r, prngReg c r)) := by
  unfold Pipeline.ΦA others1; rw [scopedRest1_eq]; simp only [scM1, owns_whole]
  iintro ⟨⟨H1, H2, H3, H4, H5, H6, H7, H8, H9, H10, H11, ⟨%f, HS⟩⟩, Hg⟩
  isplitl [H1 H2 H3 H4 H5 H6 H7 H8 H9 H10 H11]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HS]
  · iexists f; iexact HS
  iexact Hg

/-- and takes them back. -/
theorem PhiA1_join (c : Dev nD) :
    iprop(others1 c ∗ (∃ d, owns (c : Thread nD τ) scM1 fullShare d) ∗ (∃ r, prngReg c r)) ⊢ (Pipeline.ΦA spec1 c : sProp 𝕄) := by
  unfold Pipeline.ΦA others1; rw [scopedRest1_eq]; simp only [scM1, owns_whole]
  iintro ⟨⟨H1, H2, H3, H4, H5, H6, H7, H8, H9, H10, H11⟩, ⟨%f, HS⟩, Hg⟩
  isplitl [H1 H2 H3 H4 H5 H6 H7 H8 H9 H10 H11 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists f; iexact HS
  iexact Hg

end Cert.Kernel.Hand

end
-- ==== Proof.KBAttnRunA.lean ====
/-
  The attention body at the FIRST key tile of a row block: the accumulator is zeroed, then this tile's
  sigmoid(q kᵀ) v is added to it; nothing is stored into the output block, which is handed back as found.
  The body is run symbolically on whole staging memrefs; what the accumulator's buffer ends with is recorded as
  the list of pieces written, found by the run itself.
-/
import proofs.«140186_j41360535061095_1_alg».proof.Proof.KBAttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i)
    (x0 x1 x2 : Vec F S1x1024x64 .bf16) :
    Σ' (L3 : List (View.Piece (Elt F) S1x1024x64 .f32)), { LS0 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KBAttnRunB.lean ====
/-
  The attention body at a MIDDLE key tile: this tile's sigmoid(q kᵀ) v is added to the accumulator the tile
  before left; nothing is stored into the output block, which is handed back as found.
-/
import proofs.«140186_j41360535061095_1_alg».proof.Proof.KBAttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i)
    (x0 x1 x2 : Vec F S1x1024x64 .bf16) (xs0 : Vec F S1024x64 .f32) :
    Σ' (L3 : List (View.Piece (Elt F) S1x1024x64 .f32)), { LS0 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KBAttnRunC.lean ====
/-
  The attention body at the LAST key tile: this tile's sigmoid(q kᵀ) v is added to the accumulator the tile
  before left, and the accumulator is then copied into the output block.
-/
import proofs.«140186_j41360535061095_1_alg».proof.Proof.KBAttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 x1 x2 : Vec F S1x1024x64 .bf16) (xs0 : Vec F S1024x64 .f32) :
    Σ' (L3 : List (View.Piece (Elt F) S1x1024x64 .f32)), { LS0 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KBAttnBody.lean ====
/-
  The attention region, point by point. After the body at grid point n (n = 16·batch + 4·row block + key tile) the
  accumulator's buffer holds: at a first key tile, zero plus that tile's sigmoid(q kᵀ) v; at a later tile, what the point
  before left plus this tile's term. The output block is stored only at the last key tile (the accumulator copied
  out) and is idle elsewhere. From these the region's proof data and its body obligation at every point.
-/
import proofs.«140186_j41360535061095_1_alg».proof.Proof.KBAttnRunA
import proofs.«140186_j41360535061095_1_alg».proof.Proof.KBAttnRunB
import proofs.«140186_j41360535061095_1_alg».proof.Proof.KBAttnRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem scover1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i)
    (x0 x1 x2 : Vec F S1x1024x64 .bf16) (y : S1024x64.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x64.size (by sl_kernel_rfl) y

/-- The accumulator after a first key tile. -/
def sout1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i)
    (x0 x1 x2 : Vec F S1x1024x64 .bf16) : Vec F S1024x64 .f32 :=
  VS1.read (Elt F) (VS1.writes (Elt F) VS1.junk (kernelRun1_A c i arg3 harg3 arg4 harg4 arg5 harg5 arg6 harg6 arg7 harg7 hc0 hc1 x0 x1 x2).2.1)

theorem scover1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i)
    (x0 x1 x2 : Vec F S1x1024x64 .bf16) (xs0 : Vec F S1024x64 .f32) (y : S1024x64.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x64.size (by sl_kernel_rfl) y

/-- The accumulator after a middle key tile, from what the tile before left (`xs0`). -/
def sout1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i)
    (x0 x1 x2 : Vec F S1x1024x64 .bf16) (xs0 : Vec F S1024x64 .f32) : Vec F S1024x64 .f32 :=
  VS1.read (Elt F) (VS1.writes (Elt F) VS1.junk (kernelRun1_B c i arg3 harg3 arg4 harg4 arg5 harg5 arg6 harg6 arg7 harg7 hc0 hc1 x0 x1 x2 xs0).2.1)

theorem scover1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 x1 x2 : Vec F S1x1024x64 .bf16) (xs0 : Vec F S1024x64 .f32) (y : S1024x64.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x64.size (by sl_kernel_rfl) y

/-- The accumulator after the last key tile. -/
def sout1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 x1 x2 : Vec F S1x1024x64 .bf16) (xs0 : Vec F S1024x64 .f32) : Vec F S1024x64 .f32 :=
  VS1.read (Elt F) (VS1.writes (Elt F) VS1.junk (kernelRun1_C c i arg3 harg3 arg4 harg4 arg5 harg5 arg6 harg6 arg7 harg7 hc0 hc1 x0 x1 x2 xs0).2.1)

theorem cover1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 x1 x2 : Vec F S1x1024x64 .bf16) (xs0 : Vec F S1024x64 .f32) (y : S1x1024x64.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1x1024x64.size (by sl_kernel_rfl) y

/-- The output block after the last key tile. -/
def out1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 x1 x2 : Vec F S1x1024x64 .bf16) (xs0 : Vec F S1024x64 .f32) : Vec F S1x1024x64 .f32 :=
  VO1_3.read (Elt F) (VO1_3.writes (Elt F) VO1_3.junk (kernelRun1_C c i arg3 harg3 arg4 harg4 arg5 harg5 arg6 harg6 arg7 harg7 hc0 hc1 x0 x1 x2 xs0).1)

/-- Where the body stores nothing into the output block: a placeholder nothing consults (the window is idle there). -/
def out1_idle : Vec F S1x1024x64 .f32 := VO1_3.read (Elt F) (VO1_3.junk (Val := Elt F))

section
variable (V : (c : Dev nD) → (b : Ref sig .tc) → Buf (Elt F) ((c : Thread nD τ).loc b))

/-! ## The accumulation over the grid -/

/-- What the output block's buffer and the accumulator hold after the body at point `n` (a pair). -/
def outsAt1 (c : Dev nD) : (n : ℕ) → n < cfg1.N → Vec F S1x1024x64 .f32 × Vec F S1024x64 .f32
  | 0, hn => (out1_idle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      (out1_idle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h1 => by (try dsimp only at h1); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_idle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a first key tile. -/
theorem outsAt1_A (c : Dev nD) (t : Fin cfg1.N) (h0 : t.val % 4 = 0) (h1 : ¬t.val % 4 = 3) :
    outsAt1 V c t.val t.isLt = (out1_idle, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At a middle key tile. -/
theorem outsAt1_B (c : Dev nD) (t : Fin cfg1.N) (h0 : ¬t.val % 4 = 0) (h1 : ¬t.val % 4 = 3) :
    outsAt1 V c t.val t.isLt = (out1_idle, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last key tile. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant, point by point -/

/-- Before the first point the class's invariant; after point `n` the untouched scoped buffers, the accumulator's
    buffer at what point `n` left in it, and the generator register. -/
def PhiS1 (c : Dev nD) : (n : ℕ) → n ≤ cfg1.N → sProp 𝕄
  | 0, _ => Pipeline.ΦA spec1 c
  | n + 1, hn => iprop(others1 c ∗ owns (c : Thread nD τ) scM1 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c ∗ owns (c : Thread nD τ) scM1 fullShare ((outsAt1 V c n hn).2) ∗ (∃ r, prngReg c r)) := rfl

theorem PhiS1_pos (c : Dev nD) (n : ℕ) (h : n ≤ cfg1.N) (hz : n ≠ 0) :
    PhiS1 V c n h = iprop(others1 c ∗ owns (c : Thread nD τ) scM1 fullShare ((outsAt1 V c (n - 1) (by omega)).2) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the closed forms of the two conditions say which case the point is in; the invariant hands the
    body the accumulator at what the point before left (anything at the very first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 4 = 0
  · have h1 : ¬ t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split c) $$ HΦ
      icases HΦ' with ⟨Hoth, HS0, Hg⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨Hoth, HS0, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨Hoth, HS0, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨Hoth, HS0, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point; -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- after the last point the invariant gives it back, the accumulator's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne]
  iintro ⟨Hoth, HS0, Hg⟩
  iapply (PhiA1_join c)
  isplitl [Hoth]; · iexact Hoth
  isplitl [HS0]; · iexists _; iexact HS0
  iexact Hg

end

end Cert.Kernel.Hand

end
-- ==== Proof.KBRun.lean ====
/-
  The whole run of the kernel program: @main is a reshape, the projection region, three reshapes and the attention
  region. The contents of the TensorCore's unscoped buffers are followed through these five items — each host
  stretch applies its operations, each region leaves its windows' arrays at what its write-backs fold to and
  every other buffer as it found it — and every weakly fair execution from the launch memory ends with every
  unscoped buffer at the last of these valuations. The four argument arrays walk back through the fold to the
  launch memory: no host operation writes one, and a region only reads them.
-/
import proofs.«140186_j41360535061095_1_alg».proof.Proof.KBProj
import proofs.«140186_j41360535061095_1_alg».proof.Proof.KBAttnBody
import proofs.«140186_j41360535061095_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the input's reshape to rows (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes of the projections to [batch, row, feature] (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_writes_sub hostOps0 _ hostOps0_writes (by decide)
    _ = m ((c : Thread nD τ).loc main_arg3) := rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
/-- The projection region: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at `W3`, left at `W4`; its invariant starts as the
    class's and ends giving the class's back (the accumulator's contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (V3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ (Pipeline.ΦA spec1 c : sProp 𝕄) := hout1 (V3 m ρ) c
    unfold Pipeline.ΦA at h
    iintro Hlast
    ihave H := h $$ Hlast
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` terminates, nothing faulting, with every unscoped buffer of
    every core at the last valuation `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.KIProj.lean ====
/- Region 0 of the program's @main: the projection kernel (custom_call 0) as a pipeline body.
   Everything is stated at a parameter `V`, the TensorCore's buffer contents when the region is entered, and for any
   float interpretation `F`: each window's block at a grid point, what the body leaves in each of the three output
   staging buffers (one whole-buffer store each, of a payload of the input blocks), the body's triple, the pipeline's
   proof data and its body obligation. -/
import proofs.«140186_j41360535061095_1_alg».proof.Proof.Gen.KernelIdeal.Launch
import proofs.«140186_j41360535061095_1_alg».proof.Proof.Gen.KernelIdeal.Skeleton
import proofs.«140186_j41360535061095_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations, a new row block at every point): its current staging buffer holds its block at
    every point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the first weight matrix, whole, the same block at every point so fetched at the first point
    only): where it is not fetched the block index has not moved and the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the second weight matrix), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the third weight matrix), likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rX0 : Rect S2048x512 := Rect.unit (s := S2048x512) ![0, 0] S2048x512.size inb_S2048x512_S2048x512_0_0
abbrev rW0 : Rect S512x64 := Rect.unit (s := S512x64) ![0, 0] S512x64.size inb_S512x64_S512x64_0_0
abbrev rO0 : Rect S2048x64 := Rect.unit (s := S2048x64) ![0, 0] S2048x64.size inb_S2048x64_S2048x64_0_0

/-! ## What the body leaves in each output window's buffer -/

/-- Window 4's staging buffer after the body, from the activation block and the first weight matrix: its one
    store, of the whole buffer, as a one-piece list. -/
def projOut4 (x0 : Vec F S2048x512 .f32) (x1 : Vec F S512x64 .f32) : Vec F S2048x64 .bf16 :=
  View.canon [⟨rO0, k0_pay2 (View.ld x0 rX0) (View.ld x1 rW0)⟩]

/-- Window 5's, from the activation block and the second weight matrix. -/
def projOut5 (x0 : Vec F S2048x512 .f32) (x2 : Vec F S512x64 .f32) : Vec F S2048x64 .bf16 :=
  View.canon [⟨rO0, k0_pay3 (View.ld x0 rX0) (View.ld x2 rW0)⟩]

/-- Window 6's, from the activation block and the third weight matrix. -/
def projOut6 (x0 : Vec F S2048x512 .f32) (x3 : Vec F S512x64 .f32) : Vec F S2048x64 .bf16 :=
  View.canon [⟨rO0, k0_pay4 (View.ld x0 rX0) (View.ld x3 rW0)⟩]

/-- The one store is of the whole buffer, so it covers it (the tiling checked by evaluation). -/
theorem coverO0 (p0 : Vec F S2048x64 .bf16) (y : S2048x64.Idx) :
    ∃ pc ∈ ([⟨rO0, p0⟩] : List (View.Piece (Elt F) S2048x64 .bf16)), y ∈ pc.1.set :=
  View.cover_of_tiled [⟨rO0, p0⟩] S2048x64.size (by rfl) y

/-! ## The body's triple -/

set_option maxHeartbeats 1000000 in
/-- The kernel body on whole staging memrefs, the four inputs' at read contents `x0 … x3` and the three outputs' at
    anything, runs to the continuation holding the inputs' as they were and each output's at its projection of the
    inputs': each output buffer is read once (the value unused) and then stored whole. -/
theorem sound_kernel0 (c : Dev nD) (E : Set ℕ) (i : grid0.Coords)
    (arg1 : Memref sig .tc .vmem S2048x512 .f32) (harg1 : arg1.IsWhole)
    (arg2 : Memref sig .tc .vmem S512x64 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S2048x64 .bf16) (harg5 : arg5.IsWhole)
    (arg6 : Memref sig .tc .vmem S2048x64 .bf16) (harg6 : arg6.IsWhole)
    (arg7 : Memref sig .tc .vmem S2048x64 .bf16) (harg7 : arg7.IsWhole)
    (x0 : Vec F S2048x512 .f32) (x1 x2 x3 : Vec F S512x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (projOut4 x0 x1) ∗ owns (c : Thread nD τ) arg6 fullShare (projOut5 x0 x2)
            ∗ owns (c : Thread nD τ) arg7 fullShare (projOut6 x0 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO0 _)
  isplitl [H5]
  · iexists _; isplitr
    swap; · iexact H5
    ipureintro
    exact View.read_writes_eq_canon _ _ _ (coverO0 _)
  iexists _; isplitr
  swap; · iexact H6
  ipureintro
  exact View.read_writes_eq_canon _ _ _ (coverO0 _)

/-! ## The pipeline's proof data -/

/-- The proof data of pipeline 0 on core `c`: the arrays as the region finds them (`V`); after the body at point
    `t` each input's buffer at its block and each output's at its projection of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => projOut4 (iblk0 V c 0 t) (iblk0 V c 1 t)
    | ⟨5, _⟩ => projOut5 (iblk0 V c 0 t) (iblk0 V c 2 t)
    | ⟨6, _⟩ => projOut6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = projOut4 (iblk0 V c 0 t) (iblk0 V c 1 t) := by dsimp only [dat0]
theorem after0_5 (c : Dev nD) (t : Fin cfg0.N) : (dat0 V c).after 5 t = projOut5 (iblk0 V c 0 t) (iblk0 V c 2 t) := by dsimp only [dat0]
theorem after0_6 (c : Dev nD) (t : Fin cfg0.N) : (dat0 V c).after 6 t = projOut6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the library's body obligation's precondition, the seven windows one
    by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIAttnBase.lean ====
/-
  The attention region of the kernel program: per key tile the body adds sigmoid(q kᵀ) v into an accumulator that
  lives in a scratch buffer across the grid's innermost (key-tile) axis, zeroing it at the first tile and copying it to
  the output block at the last. This module fixes what the three control cases share: each window's block at a
  point as read off the arrays the region finds, the two branch conditions in closed form over the 64 grid points
  (the key-tile coordinate is the point's number mod 4), where the output window is idle, and the region's
  invariant split into the accumulator's buffer, the other scoped buffers and the generator register.
-/
import proofs.«140186_j41360535061095_1_alg».proof.Proof.Gen.KernelIdeal.Launch
import proofs.«140186_j41360535061095_1_alg».proof.Proof.Gen.KernelIdeal.Skeleton
import proofs.«140186_j41360535061095_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t` of the attention region, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's query block, whether or not the point fetched it
    (between two fetches the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the key window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions -/

/-- "This is the first key tile" (the accumulator is zeroed): the body's first condition over the grid coordinates. -/
abbrev cond1_0 (i : grid1.Coords) : Prop := (Scalar.cmpi .ne (Scalar.extui (Scalar.cmpi .eq (BitVec.ofNat 32 (i 2).val) 0#32)) 0#32) = 1#1
/-- It holds exactly at the points whose number is 0 mod 4. -/
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last key tile" (the accumulator is copied out): the body's second condition. -/
abbrev cond1_1 (i : grid1.Coords) : Prop := k1_cond2 i = 1#1
/-- It holds exactly at the points whose number is 3 mod 4. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Away from the last key tile the body stores nothing into the output block: the window is idle there, -/
theorem idleAt1_3 : ∀ t : Fin cfg1.N, ¬cond1_1 (grid1.coords t) → cfg1.idle 3 (grid1.coords t) = true := by decide +kernel
/-- and the block is not written back there; -/
theorem noFlush1_3 : ∀ t : Fin cfg1.N, ¬cond1_1 (grid1.coords t) → (cfg1.win 3).flush t = false := by decide +kernel
/-- at the last key tile it is live. -/
theorem liveAt1_3 : ∀ t : Fin cfg1.N, cond1_1 (grid1.coords t) → cfg1.idle 3 (grid1.coords t) = false := by decide +kernel

/-! ## The memrefs the body is called with -/

abbrev VO1_3 : View sig .tc .vmem S1x1024x64 .f32 := (Memref.whole cc1_stg3_0 : Memref sig .tc .vmem S1x1024x64 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The accumulator's scratch buffer, whole. -/
abbrev scM1 : Memref sig .tc .vmem S1024x64 .f32 := Memref.whole cc1_scratch0
abbrev VS1 : View sig .tc .vmem S1024x64 .f32 := scM1.view

/-! ## The class invariant, with the accumulator's buffer split off -/

/-- The scoped buffers the attention body never touches (the projection region's staging buffers), each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The region's class invariant hands over the accumulator's buffer at some contents, the untouched buffers and the generator register, -/
theorem PhiA1_split (c : Dev nD) :
    (Pipeline.ΦA spec1 c : sProp 𝕄) ⊢ iprop(others1 c ∗ (∃ d, owns (c : Thread nD τ) scM1 fullShare d) ∗ (∃ r, prngReg c r)) := by
  unfold Pipeline.ΦA others1; rw [scopedRest1_eq]; simp only [scM1, owns_whole]
  iintro ⟨⟨H1, H2, H3, H4, H5, H6, H7, H8, H9, H10, H11, ⟨%f, HS⟩⟩, Hg⟩
  isplitl [H1 H2 H3 H4 H5 H6 H7 H8 H9 H10 H11]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HS]
  · iexists f; iexact HS
  iexact Hg

/-- and takes them back. -/
theorem PhiA1_join (c : Dev nD) :
    iprop(others1 c ∗ (∃ d, owns (c : Thread nD τ) scM1 fullShare d) ∗ (∃ r, prngReg c r)) ⊢ (Pipeline.ΦA spec1 c : sProp 𝕄) := by
  unfold Pipeline.ΦA others1; rw [scopedRest1_eq]; simp only [scM1, owns_whole]
  iintro ⟨⟨H1, H2, H3, H4, H5, H6, H7, H8, H9, H10, H11⟩, ⟨%f, HS⟩, Hg⟩
  isplitl [H1 H2 H3 H4 H5 H6 H7 H8 H9 H10 H11 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists f; iexact HS
  iexact Hg

end Cert.KernelIdeal.Hand

end
-- ==== Proof.KIAttnRunA.lean ====
/-
  The attention body at the FIRST key tile of a row block: the accumulator is zeroed, then this tile's
  sigmoid(q kᵀ) v is added to it; nothing is stored into the output block, which is handed back as found.
  The body is run symbolically on whole staging memrefs; what the accumulator's buffer ends with is recorded as
  the list of pieces written, found by the run itself.
-/
import proofs.«140186_j41360535061095_1_alg».proof.Proof.KIAttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i)
    (x0 x1 x2 : Vec F S1x1024x64 .bf16) :
    Σ' (L3 : List (View.Piece (Elt F) S1x1024x64 .f32)), { LS0 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KIAttnRunB.lean ====
/-
  The attention body at a MIDDLE key tile: this tile's sigmoid(q kᵀ) v is added to the accumulator the tile
  before left; nothing is stored into the output block, which is handed back as found.
-/
import proofs.«140186_j41360535061095_1_alg».proof.Proof.KIAttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i)
    (x0 x1 x2 : Vec F S1x1024x64 .bf16) (xs0 : Vec F S1024x64 .f32) :
    Σ' (L3 : List (View.Piece (Elt F) S1x1024x64 .f32)), { LS0 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KIAttnRunC.lean ====
/-
  The attention body at the LAST key tile: this tile's sigmoid(q kᵀ) v is added to the accumulator the tile
  before left, and the accumulator is then copied into the output block.
-/
import proofs.«140186_j41360535061095_1_alg».proof.Proof.KIAttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 x1 x2 : Vec F S1x1024x64 .bf16) (xs0 : Vec F S1024x64 .f32) :
    Σ' (L3 : List (View.Piece (Elt F) S1x1024x64 .f32)), { LS0 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KIAttnBody.lean ====
/-
  The attention region, point by point. After the body at grid point n (n = 16·batch + 4·row block + key tile) the
  accumulator's buffer holds: at a first key tile, zero plus that tile's sigmoid(q kᵀ) v; at a later tile, what the point
  before left plus this tile's term. The output block is stored only at the last key tile (the accumulator copied
  out) and is idle elsewhere. From these the region's proof data and its body obligation at every point.
-/
import proofs.«140186_j41360535061095_1_alg».proof.Proof.KIAttnRunA
import proofs.«140186_j41360535061095_1_alg».proof.Proof.KIAttnRunB
import proofs.«140186_j41360535061095_1_alg».proof.Proof.KIAttnRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem scover1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i)
    (x0 x1 x2 : Vec F S1x1024x64 .bf16) (y : S1024x64.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x64.size (by sl_kernel_rfl) y

/-- The accumulator after a first key tile. -/
def sout1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i)
    (x0 x1 x2 : Vec F S1x1024x64 .bf16) : Vec F S1024x64 .f32 :=
  VS1.read (Elt F) (VS1.writes (Elt F) VS1.junk (kernelRun1_A c i arg3 harg3 arg4 harg4 arg5 harg5 arg6 harg6 arg7 harg7 hc0 hc1 x0 x1 x2).2.1)

theorem scover1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i)
    (x0 x1 x2 : Vec F S1x1024x64 .bf16) (xs0 : Vec F S1024x64 .f32) (y : S1024x64.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x64.size (by sl_kernel_rfl) y

/-- The accumulator after a middle key tile, from what the tile before left (`xs0`). -/
def sout1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i)
    (x0 x1 x2 : Vec F S1x1024x64 .bf16) (xs0 : Vec F S1024x64 .f32) : Vec F S1024x64 .f32 :=
  VS1.read (Elt F) (VS1.writes (Elt F) VS1.junk (kernelRun1_B c i arg3 harg3 arg4 harg4 arg5 harg5 arg6 harg6 arg7 harg7 hc0 hc1 x0 x1 x2 xs0).2.1)

theorem scover1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 x1 x2 : Vec F S1x1024x64 .bf16) (xs0 : Vec F S1024x64 .f32) (y : S1024x64.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x64.size (by sl_kernel_rfl) y

/-- The accumulator after the last key tile. -/
def sout1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 x1 x2 : Vec F S1x1024x64 .bf16) (xs0 : Vec F S1024x64 .f32) : Vec F S1024x64 .f32 :=
  VS1.read (Elt F) (VS1.writes (Elt F) VS1.junk (kernelRun1_C c i arg3 harg3 arg4 harg4 arg5 harg5 arg6 harg6 arg7 harg7 hc0 hc1 x0 x1 x2 xs0).2.1)

theorem cover1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 x1 x2 : Vec F S1x1024x64 .bf16) (xs0 : Vec F S1024x64 .f32) (y : S1x1024x64.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1x1024x64.size (by sl_kernel_rfl) y

/-- The output block after the last key tile. -/
def out1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 x1 x2 : Vec F S1x1024x64 .bf16) (xs0 : Vec F S1024x64 .f32) : Vec F S1x1024x64 .f32 :=
  VO1_3.read (Elt F) (VO1_3.writes (Elt F) VO1_3.junk (kernelRun1_C c i arg3 harg3 arg4 harg4 arg5 harg5 arg6 harg6 arg7 harg7 hc0 hc1 x0 x1 x2 xs0).1)

/-- Where the body stores nothing into the output block: a placeholder nothing consults (the window is idle there). -/
def out1_idle : Vec F S1x1024x64 .f32 := VO1_3.read (Elt F) (VO1_3.junk (Val := Elt F))

section
variable (V : (c : Dev nD) → (b : Ref sig .tc) → Buf (Elt F) ((c : Thread nD τ).loc b))

/-! ## The accumulation over the grid -/

/-- What the output block's buffer and the accumulator hold after the body at point `n` (a pair). -/
def outsAt1 (c : Dev nD) : (n : ℕ) → n < cfg1.N → Vec F S1x1024x64 .f32 × Vec F S1024x64 .f32
  | 0, hn => (out1_idle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      (out1_idle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h1 => by (try dsimp only at h1); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_idle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a first key tile. -/
theorem outsAt1_A (c : Dev nD) (t : Fin cfg1.N) (h0 : t.val % 4 = 0) (h1 : ¬t.val % 4 = 3) :
    outsAt1 V c t.val t.isLt = (out1_idle, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At a middle key tile. -/
theorem outsAt1_B (c : Dev nD) (t : Fin cfg1.N) (h0 : ¬t.val % 4 = 0) (h1 : ¬t.val % 4 = 3) :
    outsAt1 V c t.val t.isLt = (out1_idle, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last key tile. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant, point by point -/

/-- Before the first point the class's invariant; after point `n` the untouched scoped buffers, the accumulator's
    buffer at what point `n` left in it, and the generator register. -/
def PhiS1 (c : Dev nD) : (n : ℕ) → n ≤ cfg1.N → sProp 𝕄
  | 0, _ => Pipeline.ΦA spec1 c
  | n + 1, hn => iprop(others1 c ∗ owns (c : Thread nD τ) scM1 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c ∗ owns (c : Thread nD τ) scM1 fullShare ((outsAt1 V c n hn).2) ∗ (∃ r, prngReg c r)) := rfl

theorem PhiS1_pos (c : Dev nD) (n : ℕ) (h : n ≤ cfg1.N) (hz : n ≠ 0) :
    PhiS1 V c n h = iprop(others1 c ∗ owns (c : Thread nD τ) scM1 fullShare ((outsAt1 V c (n - 1) (by omega)).2) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the closed forms of the two conditions say which case the point is in; the invariant hands the
    body the accumulator at what the point before left (anything at the very first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 4 = 0
  · have h1 : ¬ t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split c) $$ HΦ
      icases HΦ' with ⟨Hoth, HS0, Hg⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨Hoth, HS0, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨Hoth, HS0, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨Hoth, HS0, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point; -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- after the last point the invariant gives it back, the accumulator's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne]
  iintro ⟨Hoth, HS0, Hg⟩
  iapply (PhiA1_join c)
  isplitl [Hoth]; · iexact Hoth
  isplitl [HS0]; · iexists _; iexact HS0
  iexact Hg

end

end Cert.KernelIdeal.Hand

end
-- ==== Proof.KIRun.lean ====
/-
  The whole run of the kernel program: @main is a reshape, the projection region, three reshapes and the attention
  region. The contents of the TensorCore's unscoped buffers are followed through these five items — each host
  stretch applies its operations, each region leaves its windows' arrays at what its write-backs fold to and
  every other buffer as it found it — and every weakly fair execution from the launch memory ends with every
  unscoped buffer at the last of these valuations. The four argument arrays walk back through the fold to the
  launch memory: no host operation writes one, and a region only reads them.
-/
import proofs.«140186_j41360535061095_1_alg».proof.Proof.KIProj
import proofs.«140186_j41360535061095_1_alg».proof.Proof.KIAttnBody
import proofs.«140186_j41360535061095_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the input's reshape to rows (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes of the projections to [batch, row, feature] (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_writes_sub hostOps0 _ hostOps0_writes (by decide)
    _ = m ((c : Thread nD τ).loc main_arg3) := rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
/-- The projection region: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at `W3`, left at `W4`; its invariant starts as the
    class's and ends giving the class's back (the accumulator's contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (V3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ (Pipeline.ΦA spec1 c : sProp 𝕄) := hout1 (V3 m ρ) c
    unfold Pipeline.ΦA at h
    iintro Hlast
    ihave H := h $$ Hlast
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` terminates, nothing faulting, with every unscoped buffer of
    every core at the last valuation `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.Spec.lean ====
/-
  The function both programs compute, stated once over the extended reals and over literal shapes.

  For an input array x of shape [4, 4096, 512, 1] and three weight matrices Wq, Wk, Wv of shape [512, 64]:
  every entry of x is clipped into [-1, 1]; each row (b, s) of the clipped array is projected by the three
  matrices (a contraction over the 512 features); the score of a query row s against a key row t of the same
  batch b is the logistic function of the inner product of their projections over the 64 columns; and the
  result at (b, s, u) is the sum over all 4096 key rows t of score(s, t) times the value projection V[b, t, u].
  There is no normalization across t: the weights are pointwise logistic values, not a softmax.

  Also here: the two regroupings of the sum over the key axis that a tiled evaluation uses (four tiles of
  1024 rows, accumulated left to right from zero). Addition of extended reals is commutative and associative
  everywhere, infinities included, so neither regrouping needs any finiteness.
-/
import Idealize.ShloMosaic.PureOps.Ideal
import Idealize.ShloMosaic.PureOps.Ideal.Laws
import Idealize.ShloMosaic.Lib.ValueIdx
import Mathlib.Algebra.BigOperators.Fin

noncomputable section

open scoped BigOperators
open Idealize.ShloMosaic

namespace Cert.Spec

/-- The input array's shape: batch, row, feature, and a trailing axis of extent one. -/
abbrev SIn : Shape := ⟨4, ![4, 4096, 512, 1]⟩
/-- A weight matrix's shape: feature by column. -/
abbrev SW : Shape := ⟨2, ![512, 64]⟩
/-- The result's shape: batch, row, column. -/
abbrev SOut : Shape := ⟨3, ![4, 4096, 64]⟩

/-- Clipping into [-1, 1], written as min(1, max(-1, x)) with the two bounds as their f32 words. -/
def clip (x : EReal) : EReal :=
  min (Ideal.ofBits .f32 0x3F800000#32 : EReal) (max (Ideal.ofBits .f32 0xBF800000#32 : EReal) x)

/-- Row (b, s) of the clipped input projected on column e of the matrix w: the contraction over the 512 features. -/
def proj (inp : SIn.Idx → EReal) (w : SW.Idx → EReal) (b : Fin 4) (s : Fin 4096) (e : Fin 64) : EReal :=
  ∑ d : Fin 512, clip (inp (ValueIdx.ix4 b s d (0 : Fin 1))) * w (ValueIdx.ix2 d e)

/-- The weight of key row t for query row s in batch b: the logistic function of the inner product of the
    query projection of row s and the key projection of row t. -/
def score (inp : SIn.Idx → EReal) (wq wk : SW.Idx → EReal) (b : Fin 4) (s t : Fin 4096) : EReal :=
  Ideal.logistic (∑ e : Fin 64, proj inp wq b s e * proj inp wk b t e)

/-- The result at (b, s, u): the value projections of all key rows, each weighted by its score against row s. -/
def Gat (inp : SIn.Idx → EReal) (wq wk wv : SW.Idx → EReal) (b : Fin 4) (s : Fin 4096) (u : Fin 64) : EReal :=
  ∑ t : Fin 4096, score inp wq wk b s t * proj inp wv b t u

/-- The result array as one function of the four argument arrays. -/
def G (inp : SIn.Idx → EReal) (wq wk wv : SW.Idx → EReal) : SOut.Idx → EReal :=
  fun i => Gat inp wq wk wv (i 0) (i 1) (i 2)

/-- The result array read at an index given by its coordinates. -/
theorem G_ix3 (inp : SIn.Idx → EReal) (wq wk wv : SW.Idx → EReal) (b : Fin 4) (s : Fin 4096) (u : Fin 64) :
    G inp wq wk wv (ValueIdx.ix3 b s u) = Gat inp wq wk wv b s u := rfl

/-- A sum over the 4096 key rows is the sum over four tiles of the sums over the 1024 rows of each tile:
    row t = kv * 1024 + j lies in tile kv at offset j, and every row is of that form exactly once. -/
theorem sum_tiles (f : Fin 4096 → EReal) :
    ∑ t : Fin 4096, f t = ∑ kv : Fin 4, ∑ j : Fin 1024, f ⟨kv.val * 1024 + j.val, by omega⟩ := by
  rw [← Equiv.sum_comp (finProdFinEquiv : Fin 4 × Fin 1024 ≃ Fin 4096) f, Fintype.sum_prod_type]
  refine Finset.sum_congr rfl fun kv _ => Finset.sum_congr rfl fun j _ => congrArg f (Fin.ext ?_)
  show j.val + 1024 * kv.val = kv.val * 1024 + j.val
  omega

/-- Accumulating four tile contributions one after another from zero gives their sum. -/
theorem acc_four (p : Fin 4 → EReal) : (((0 + p 0) + p 1) + p 2) + p 3 = ∑ kv : Fin 4, p kv := by
  rw [Fin.sum_univ_four, zero_add]

end Cert.Spec

end
-- ==== Proof.KIPayload.lean ====
/-
  What each store of the two kernels writes, read one element at a time over the extended reals.

  The projection kernel clips its block of 2048 input rows into [-1, 1] and multiplies it by each of the three
  weight matrices: entry (r, e) of a product is the sum over the 512 features d of clip(x[r, d]) * w[d, e]. The
  changes of float format on the way in and out are the identity on extended reals, and a matrix product into a
  zero accumulator is the plain sum over the contracted axis.

  The attention kernel holds one tile of 1024 query rows, one tile of 1024 key rows and the matching tile of
  value rows. Its running sum starts at zero; each step adds, at (r, u), the sum over the 1024 key rows j of the
  tile of logistic(sum over the 64 columns e of q[r, e] * k[j, e]) * v[j, u]; the last step copies the running sum
  out under a leading axis of extent one.
-/
import proofs.«140186_j41360535061095_1_alg».proof.Proof.Gen.KernelIdeal.Skeleton
import proofs.«140186_j41360535061095_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Cert.KernelIdeal Cert.KernelIdeal.Gen Idealize.ShloMosaic Idealize.ShloMosaic.ValueIdx

/-! ## The three matrix products at an index

Each product contracts one axis of each operand; its contraction index is that one coordinate, and the operands
are read at the output's row or column together with it. -/

/-- rows × features times features × columns: the left operand's row is the output's row. -/
theorem lhsP_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
/-- … and the right operand's column is the output's column. -/
theorem rhsP_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- The projection product into a zero accumulator, at (r, e): the sum over the 512 features. -/
theorem mmP_apply {φ₁ φ₂ : FTy} (l : FVec Ideal S2048x512 φ₁) (w : FVec Ideal S512x64 φ₂) (r : Fin 2048) (e : Fin 64) :
    matmul dot_S2048x512_S512x64_S2048x64_1_0_0_1_n_n none l w (constant (F := Ideal) S2048x64 .f32 0x00000000#32) (ix2 r e)
      = ∑ d : Fin 512, l (ix2 r d) * w (ix2 d e) := by
  simp only [matmul]
  rw [Ideal.matmul_constant_zero_apply, ← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 r e) ((contrEquiv1 dot_S2048x512_S512x64_S2048x64_1_0_0_1_n_n 512 rfl rfl).symm k) = ix2 r k := funext fun a => Fin.ext (by
    match a with
    | ⟨0, _⟩ => exact lhsP_0 _ _
    | ⟨1, _⟩ => exact (dot_S2048x512_S512x64_S2048x64_1_0_0_1_n_n.lhsIdx_val_of_single rfl _ _).trans hk)
  have er : dot_S2048x512_S512x64_S2048x64_1_0_0_1_n_n.rhsIdx (ix2 r e) ((contrEquiv1 dot_S2048x512_S512x64_S2048x64_1_0_0_1_n_n 512 rfl rfl).symm k) = ix2 k e := funext fun a => Fin.ext (by
    match a with
    | ⟨0, _⟩ => exact (dot_S2048x512_S512x64_S2048x64_1_0_0_1_n_n.rhsIdx_val_of_single rfl _ _).trans hk
    | ⟨1, _⟩ => exact rhsP_1 _ _)
  rw [el, er]

/-- query rows × columns against key rows × columns, contracting the columns: the left operand's row is the
    output's row … -/
theorem lhsS_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
/-- … and the right operand's row is the output's column. -/
theorem rhsS_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl

/-- The inner products of query rows and key rows into a zero accumulator, at (r, j): the sum over the 64 columns. -/
theorem mmS_apply {φ₁ φ₂ : FTy} (q : FVec Ideal S1024x64 φ₁) (k : FVec Ideal S1024x64 φ₂) (r j : Fin 1024) :
    matmul dot_S1024x64_S1024x64_S1024x1024_1_1_0_0_n_n none q k (constant (F := Ideal) S1024x1024 .f32 0x00000000#32) (ix2 r j)
      = ∑ e : Fin 64, q (ix2 r e) * k (ix2 j e) := by
  simp only [matmul]
  rw [Ideal.matmul_constant_zero_apply, ← Equiv.sum_comp (contrEquiv1 dot_S1024x64_S1024x64_S1024x1024_1_1_0_0_n_n 64 rfl rfl).symm]
  refine Finset.sum_congr rfl fun c _ => ?_
  have hk := contrEquiv1_symm_val dot_S1024x64_S1024x64_S1024x1024_1_1_0_0_n_n 64 rfl rfl c
  have el : dot_S1024x64_S1024x64_S1024x1024_1_1_0_0_n_n.lhsIdx (ix2 r j) ((contrEquiv1 dot_S1024x64_S1024x64_S1024x1024_1_1_0_0_n_n 64 rfl rfl).symm c) = ix2 r c := funext fun a => Fin.ext (by
    match a with
    | ⟨0, _⟩ => exact lhsS_0 _ _
    | ⟨1, _⟩ => exact (dot_S1024x64_S1024x64_S1024x1024_1_1_0_0_n_n.lhsIdx_val_of_single rfl _ _).trans hk)
  have er : dot_S1024x64_S1024x64_S1024x1024_1_1_0_0_n_n.rhsIdx (ix2 r j) ((contrEquiv1 dot_S1024x64_S1024x64_S1024x1024_1_1_0_0_n_n 64 rfl rfl).symm c) = ix2 j c := funext fun a => Fin.ext (by
    match a with
    | ⟨0, _⟩ => exact rhsS_0 _ _
    | ⟨1, _⟩ => exact (dot_S1024x64_S1024x64_S1024x1024_1_1_0_0_n_n.rhsIdx_val_of_single rfl _ _).trans hk)
  rw [el, er]

/-- weights (query row × key row) times values (key row × column): the left operand's row is the output's row … -/
theorem lhsV_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
/-- … and the right operand's column is the output's column. -/
theorem rhsV_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The weights times the values into a zero accumulator, at (r, u): the sum over the 1024 key rows of the tile. -/
theorem mmV_apply {φ₁ φ₂ : FTy} (p : FVec Ideal S1024x1024 φ₁) (v : FVec Ideal S1024x64 φ₂) (r : Fin 1024) (u : Fin 64) :
    matmul dot_S1024x1024_S1024x64_S1024x64_1_0_0_1_n_n none p v (constant (F := Ideal) S1024x64 .f32 0x00000000#32) (ix2 r u)
      = ∑ j : Fin 1024, p (ix2 r j) * v (ix2 j u) := by
  simp only [matmul]
  rw [Ideal.matmul_constant_zero_apply, ← Equiv.sum_comp (contrEquiv1 dot_S1024x1024_S1024x64_S1024x64_1_0_0_1_n_n 1024 rfl rfl).symm]
  refine Finset.sum_congr rfl fun c _ => ?_
  have hk := contrEquiv1_symm_val dot_S1024x1024_S1024x64_S1024x64_1_0_0_1_n_n 1024 rfl rfl c
  have el : dot_S1024x1024_S1024x64_S1024x64_1_0_0_1_n_n.lhsIdx (ix2 r u) ((contrEquiv1 dot_S1024x1024_S1024x64_S1024x64_1_0_0_1_n_n 1024 rfl rfl).symm c) = ix2 r c := funext fun a => Fin.ext (by
    match a with
    | ⟨0, _⟩ => exact lhsV_0 _ _
    | ⟨1, _⟩ => exact (dot_S1024x1024_S1024x64_S1024x64_1_0_0_1_n_n.lhsIdx_val_of_single rfl _ _).trans hk)
  have er : dot_S1024x1024_S1024x64_S1024x64_1_0_0_1_n_n.rhsIdx (ix2 r u) ((contrEquiv1 dot_S1024x1024_S1024x64_S1024x64_1_0_0_1_n_n 1024 rfl rfl).symm c) = ix2 c u := funext fun a => Fin.ext (by
    match a with
    | ⟨0, _⟩ => exact (dot_S1024x1024_S1024x64_S1024x64_1_0_0_1_n_n.rhsIdx_val_of_single rfl _ _).trans hk
    | ⟨1, _⟩ => exact rhsV_1 _ _)
  rw [el, er]

/-! ## The projection kernel -/

/-- The clipped block at (r, d): min(1, max(-1, x[r, d])); the cast to the same shape and the change of float
    format are the identity. -/
theorem pay_clip (x : Vec Ideal S2048x512 .f32) (r : Fin 2048) (d : Fin 512) :
    k0_pay1 (F := Ideal) x (ix2 r d) = Cert.Spec.clip (x (ix2 r d)) := by
  unfold k0_pay1
  rw [shapeCast_self]
  rfl

theorem pay_proj2 (x : Vec Ideal S2048x512 .f32) (w : Vec Ideal S512x64 .f32) (r : Fin 2048) (e : Fin 64) :
    k0_pay2 (F := Ideal) x w (ix2 r e) = ∑ d : Fin 512, Cert.Spec.clip (x (ix2 r d)) * w (ix2 d e) := by
  unfold k0_pay2
  refine (mmP_apply (k0_pay1 (F := Ideal) x) (truncf .bf16 w _) r e).trans ?_
  refine Finset.sum_congr rfl fun d _ => ?_
  rw [pay_clip]
  rfl

theorem pay_proj3 (x : Vec Ideal S2048x512 .f32) (w : Vec Ideal S512x64 .f32) (r : Fin 2048) (e : Fin 64) :
    k0_pay3 (F := Ideal) x w (ix2 r e) = ∑ d : Fin 512, Cert.Spec.clip (x (ix2 r d)) * w (ix2 d e) := by
  unfold k0_pay3
  refine (mmP_apply (k0_pay1 (F := Ideal) x) (truncf .bf16 w _) r e).trans ?_
  refine Finset.sum_congr rfl fun d _ => ?_
  rw [pay_clip]
  rfl

theorem pay_proj4 (x : Vec Ideal S2048x512 .f32) (w : Vec Ideal S512x64 .f32) (r : Fin 2048) (e : Fin 64) :
    k0_pay4 (F := Ideal) x w (ix2 r e) = ∑ d : Fin 512, Cert.Spec.clip (x (ix2 r d)) * w (ix2 d e) := by
  unfold k0_pay4
  refine (mmP_apply (k0_pay1 (F := Ideal) x) (truncf .bf16 w _) r e).trans ?_
  refine Finset.sum_congr rfl fun d _ => ?_
  rw [pay_clip]
  rfl

/-! ## The attention kernel -/

/-- The running sum starts at zero. -/
theorem pay_zero (r : Fin 1024) (u : Fin 64) : k1_pay1 (F := Ideal) (ix2 r u) = 0 := by
  show Ideal.ofBits .f32 0x00000000#32 = 0
  exact Ideal.ofBits_zero_f32

/-- One step of the running sum at (r, u): the sum so far plus the tile's contribution. -/
theorem pay_acc (q k v : Vec Ideal S1x1024x64 .bf16) (a : Vec Ideal S1024x64 .f32) (r : Fin 1024) (u : Fin 64) :
    k1_pay2 (F := Ideal) q k v a (ix2 r u)
      = a (ix2 r u) + ∑ j : Fin 1024, Ideal.logistic (∑ e : Fin 64, q (ix3 (0 : Fin 1) r e) * k (ix3 (0 : Fin 1) j e)) * v (ix3 (0 : Fin 1) j u) := by
  unfold k1_pay2
  rw [shapeCast_self]
  refine (addf_apply _ _ _).trans ?_
  refine congrArg (a (ix2 r u) + ·) ?_
  refine (mmV_apply _ _ r u).trans ?_
  refine Finset.sum_congr rfl fun j _ => ?_
  refine congrArg₂ (· * ·) ?_ (shapeCast_1ab_ab_apply v _ j u)
  show Ideal.logistic _ = _
  refine congrArg Ideal.logistic ?_
  refine (mmS_apply _ _ r j).trans ?_
  refine Finset.sum_congr rfl fun e _ => ?_
  exact congrArg₂ (· * ·) (shapeCast_1ab_ab_apply q _ r e) (shapeCast_1ab_ab_apply k _ j e)

/-- The last step copies the running sum out under a leading axis of extent one. -/
theorem pay_out (a : Vec Ideal S1024x64 .f32) (r : Fin 1024) (u : Fin 64) :
    k1_pay3 (F := Ideal) a (ix3 (0 : Fin 1) r u) = a (ix2 r u) := by
  unfold k1_pay3
  exact shapeCast_ab_1ab_apply a _ (0 : Fin 1) r u

end Cert.KernelIdeal.HandValue

end
-- ==== Proof.KIProjValue.lean ====
/- What the projection region leaves in its three output arrays, over the extended reals, as one function of the
   arrays it found: row `r` of each output is the clipped row `r` of the activations contracted with one of the three
   weight matrices over the 512 features. The region's grid has 8 points; point `t` computes rows 2048 t … 2048 t + 2047
   from the same rows of the activations and the whole weight matrix, and writes them back; the 8 row blocks tile
   the 16384 rows. -/
import proofs.«140186_j41360535061095_1_alg».proof.Proof.KIProj
import proofs.«140186_j41360535061095_1_alg».proof.Proof.KIPayload
import proofs.«140186_j41360535061095_1_alg».proof.Proof.Spec
import Idealize.ShloMosaic.Lib.Pipeline.Value
import Idealize.ShloMosaic.Lib.ValueIdx

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offsets of a whole-buffer access, spelt as a constant function. -/
theorem proj_hz : (![0, 0] : Fin 2 → Nat) = fun _ => 0 := funext fun a => by fin_cases a <;> rfl

/-! ## The function the region computes -/

/-- Entry (row, e) of the projection of the clipped activations `X` by the weight matrix `W`. -/
def projAt (X : S16384x512.Idx → EReal) (W : S512x64.Idx → EReal) (row : Fin 16384) (e : Fin 64) : EReal :=
  ∑ d : Fin 512, Cert.Spec.clip (X (ix2 row d)) * W (ix2 d e)

/-- The projection as a whole array. -/
def projArr (X : S16384x512.Idx → EReal) (W : S512x64.Idx → EReal) : S16384x64.Idx → EReal :=
  fun i => projAt X W (i 0) (i 1)

theorem projArr_ix2 (X : S16384x512.Idx → EReal) (W : S512x64.Idx → EReal) (row : Fin 16384) (e : Fin 64) :
    projArr X W (ix2 row e) = projAt X W row e := rfl

/-! ## The index maps, decided once over the 8 grid points -/

/-- The activation window and the three output windows step one row block per point and stay in column block 0;
    the weight windows stay at block (0, 0). -/
theorem proj_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as rows of the arrays -/

/-- The activation block at point `t` is rows 2048 t … 2048 t + 2047 of the activations. -/
theorem proj_xblk_apply (c : Dev nD) (t : Fin cfg0.N) (p : Fin 2048) (d : Fin 512) (row : Fin 16384)
    (hrow : row.val = t.val * 2048 + p.val) :
    (iblk0 V c 0 t : Vec Ideal S2048x512 .f32) (ix2 p d) = (V c main_v0 : S16384x512.Idx → EReal) (ix2 row d) := by
  obtain ⟨e0, e1, -⟩ := proj_idx_facts t
  unfold iblk0
  rw [View.read_apply]
  show V c main_v0 _ = V c main_v0 _
  congr 1
  funext a
  apply Fin.ext
  match a with
  | ⟨0, _⟩ => show win0_0.index t (0 : Fin 2) * 2048 + 1 * p.val = row.val; rw [e0, hrow]; omega
  | ⟨1, _⟩ => show win0_0.index t (1 : Fin 2) * 512 + 1 * d.val = d.val; rw [e1]; omega

/-- A weight block at any point is the whole weight matrix. -/
theorem proj_w1blk_apply (c : Dev nD) (t : Fin cfg0.N) (d : Fin 512) (e : Fin 64) :
    (iblk0 V c 1 t : Vec Ideal S512x64 .f32) (ix2 d e) = (V c main_arg1 : S512x64.Idx → EReal) (ix2 d e) := by
  obtain ⟨-, -, e0, e1, -⟩ := proj_idx_facts t
  unfold iblk0
  rw [View.read_apply]
  show V c main_arg1 _ = V c main_arg1 _
  congr 1
  funext a
  apply Fin.ext
  match a with
  | ⟨0, _⟩ => show win0_1.index t (0 : Fin 2) * 512 + 1 * d.val = d.val; rw [e0]; omega
  | ⟨1, _⟩ => show win0_1.index t (1 : Fin 2) * 64 + 1 * e.val = e.val; rw [e1]; omega

theorem proj_w2blk_apply (c : Dev nD) (t : Fin cfg0.N) (d : Fin 512) (e : Fin 64) :
    (iblk0 V c 2 t : Vec Ideal S512x64 .f32) (ix2 d e) = (V c main_arg2 : S512x64.Idx → EReal) (ix2 d e) := by
  obtain ⟨-, -, -, -, e0, e1, -⟩ := proj_idx_facts t
  unfold iblk0
  rw [View.read_apply]
  show V c main_arg2 _ = V c main_arg2 _
  congr 1
  funext a
  apply Fin.ext
  match a with
  | ⟨0, _⟩ => show win0_2.index t (0 : Fin 2) * 512 + 1 * d.val = d.val; rw [e0]; omega
  | ⟨1, _⟩ => show win0_2.index t (1 : Fin 2) * 64 + 1 * e.val = e.val; rw [e1]; omega

theorem proj_w3blk_apply (c : Dev nD) (t : Fin cfg0.N) (d : Fin 512) (e : Fin 64) :
    (iblk0 V c 3 t : Vec Ideal S512x64 .f32) (ix2 d e) = (V c main_arg3 : S512x64.Idx → EReal) (ix2 d e) := by
  obtain ⟨-, -, -, -, -, -, e0, e1, -⟩ := proj_idx_facts t
  unfold iblk0
  rw [View.read_apply]
  show V c main_arg3 _ = V c main_arg3 _
  congr 1
  funext a
  apply Fin.ext
  match a with
  | ⟨0, _⟩ => show win0_3.index t (0 : Fin 2) * 512 + 1 * d.val = d.val; rw [e0]; omega
  | ⟨1, _⟩ => show win0_3.index t (1 : Fin 2) * 64 + 1 * e.val = e.val; rw [e1]; omega

/-! ## Output window 4 -/

/-- What point `t` writes back to output window 4's array is block `t` of the projection by the first
    weight matrix: the body's payload at (p, e) is the contraction of the clipped row p of its activation block,
    which is row 2048 t + p of the activations, with column e of the whole weight matrix. -/
theorem proj_flushed4_eq (c : Dev nD) (t : Fin cfg0.N) :
    (dat0 (F := Ideal) V c).flushed 4 t
      = ((cfg0.win 4).blk t).view.read (Elt Ideal) (projArr (V c main_v0) (V c main_arg1)) := by
  show (cfg0.win 4).cut (grid0.coords t) ((dat0 (F := Ideal) V c).after 4 t) = _
  rw [after0_4]
  unfold projOut4
  rw [View.canon_unit_zero proj_hz]
  simp only [View.ld_unit_zero (S := S2048x512) proj_hz, View.ld_unit_zero (S := S512x64) proj_hz]
  obtain ⟨-, -, -, -, -, -, -, -, e0, e1, -⟩ := proj_idx_facts t
  have hN : cfg0.N = 8 := N_0
  have ht : t.val < 8 := by have := t.isLt; omega
  funext y
  obtain ⟨p, e, rfl⟩ : ∃ (p : Fin 2048) (e : Fin 64), y = ix2 p e := ⟨y 0, y 1, eq_ix2 y⟩
  show k0_pay2 (F := Ideal) (iblk0 V c 0 t) (iblk0 V c 1 t) (ix2 p e)
    = projArr (V c main_v0) (V c main_arg1) (((cfg0.win 4).blk t).view.emb (ix2 p e))
  have hemb : ((cfg0.win 4).blk t).view.emb (ix2 p e) = (ix2 (⟨t.val * 2048 + p.val, by omega⟩ : Fin 16384) e : S16384x64.Idx) := by
    funext a
    apply Fin.ext
    match a with
    | ⟨0, _⟩ => show win0_4.index t (0 : Fin 2) * 2048 + 1 * p.val = t.val * 2048 + p.val; rw [e0]; omega
    | ⟨1, _⟩ => show win0_4.index t (1 : Fin 2) * 64 + 1 * e.val = e.val; rw [e1]; omega
  rw [hemb, projArr_ix2]
  refine (pay_proj2 (iblk0 V c 0 t) (iblk0 V c 1 t) p e).trans ?_
  unfold projAt
  refine Finset.sum_congr rfl fun d _ => ?_
  rw [proj_xblk_apply V c t p d ⟨t.val * 2048 + p.val, by omega⟩ rfl, proj_w1blk_apply V c t d e]

/-- An index of the array is in point `t`'s block iff each coordinate is in the block's range on its axis. -/
theorem proj_mem_blk4 (t : Fin cfg0.N) (i : S16384x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v1_0).slice (win0_4.rect t)).set ↔ _
  rw [View.set_slice_whole, Rect.mem_set_unit]
  exact Iff.rfl

/-- Every index of the array is in some point's block: row r is in the block of point r / 2048. -/
theorem proj_cover4 (i : S16384x64.Idx) :
    ∃ t : Fin cfg0.N, (cfg0.win 4).flush t = true ∧ i ∈ ((cfg0.win 4).blk t).view.set := by
  have hN : cfg0.N = 8 := N_0
  have hi0 : (i 0).val < 16384 := (i 0).isLt
  have hi1 : (i 1).val < 64 := (i 1).isLt
  let t : Fin cfg0.N := ⟨(i 0).val / 2048, by omega⟩
  have htv : t.val = (i 0).val / 2048 := rfl
  obtain ⟨-, -, -, -, -, -, -, -, e0, e1, -⟩ := proj_idx_facts t
  refine ⟨t, flush0_4 t, ?_⟩
  rw [proj_mem_blk4]
  intro a
  match a with
  | ⟨0, _⟩ => show win0_4.index t (0 : Fin 2) * 2048 ≤ (i 0).val ∧ (i 0).val < win0_4.index t (0 : Fin 2) * 2048 + 2048; rw [e0, htv]; omega
  | ⟨1, _⟩ => show win0_4.index t (1 : Fin 2) * 64 ≤ (i 1).val ∧ (i 1).val < win0_4.index t (1 : Fin 2) * 64 + 64; rw [e1]; omega

/-- So output window 4's array ends holding the projection. -/
theorem proj_array4 (c : Dev nD) :
    (dat0 (F := Ideal) V c).arrAt 4 cfg0.N = projArr (V c main_v0) (V c main_arg1) :=
  (dat0 (F := Ideal) V c).arrAt_eq_of_cover 4 (projArr (V c main_v0) (V c main_arg1)) (fun t _ => proj_flushed4_eq V c t) proj_cover4

theorem proj_final4 (c : Dev nD) (row : Fin 16384) (e : Fin 64) :
    (dat0 (F := Ideal) V c).arrAt 4 cfg0.N (ix2 row e)
      = ∑ d : Fin 512, Cert.Spec.clip (V c main_v0 (ix2 row d)) * V c main_arg1 (ix2 d e) := by
  rw [proj_array4]
  rfl

/-! ## Output window 5 -/

/-- What point `t` writes back to output window 5's array is block `t` of the projection by the second
    weight matrix: the body's payload at (p, e) is the contraction of the clipped row p of its activation block,
    which is row 2048 t + p of the activations, with column e of the whole weight matrix. -/
theorem proj_flushed5_eq (c : Dev nD) (t : Fin cfg0.N) :
    (dat0 (F := Ideal) V c).flushed 5 t
      = ((cfg0.win 5).blk t).view.read (Elt Ideal) (projArr (V c main_v0) (V c main_arg2)) := by
  show (cfg0.win 5).cut (grid0.coords t) ((dat0 (F := Ideal) V c).after 5 t) = _
  rw [after0_5]
  unfold projOut5
  rw [View.canon_unit_zero proj_hz]
  simp only [View.ld_unit_zero (S := S2048x512) proj_hz, View.ld_unit_zero (S := S512x64) proj_hz]
  obtain ⟨-, -, -, -, -, -, -, -, -, -, e0, e1, -⟩ := proj_idx_facts t
  have hN : cfg0.N = 8 := N_0
  have ht : t.val < 8 := by have := t.isLt; omega
  funext y
  obtain ⟨p, e, rfl⟩ : ∃ (p : Fin 2048) (e : Fin 64), y = ix2 p e := ⟨y 0, y 1, eq_ix2 y⟩
  show k0_pay3 (F := Ideal) (iblk0 V c 0 t) (iblk0 V c 2 t) (ix2 p e)
    = projArr (V c main_v0) (V c main_arg2) (((cfg0.win 5).blk t).view.emb (ix2 p e))
  have hemb : ((cfg0.win 5).blk t).view.emb (ix2 p e) = (ix2 (⟨t.val * 2048 + p.val, by omega⟩ : Fin 16384) e : S16384x64.Idx) := by
    funext a
    apply Fin.ext
    match a with
    | ⟨0, _⟩ => show win0_5.index t (0 : Fin 2) * 2048 + 1 * p.val = t.val * 2048 + p.val; rw [e0]; omega
    | ⟨1, _⟩ => show win0_5.index t (1 : Fin 2) * 64 + 1 * e.val = e.val; rw [e1]; omega
  rw [hemb, projArr_ix2]
  refine (pay_proj3 (iblk0 V c 0 t) (iblk0 V c 2 t) p e).trans ?_
  unfold projAt
  refine Finset.sum_congr rfl fun d _ => ?_
  rw [proj_xblk_apply V c t p d ⟨t.val * 2048 + p.val, by omega⟩ rfl, proj_w2blk_apply V c t d e]

/-- An index of the array is in point `t`'s block iff each coordinate is in the block's range on its axis. -/
theorem proj_mem_blk5 (t : Fin cfg0.N) (i : S16384x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v1_1).slice (win0_5.rect t)).set ↔ _
  rw [View.set_slice_whole, Rect.mem_set_unit]
  exact Iff.rfl

/-- Every index of the array is in some point's block: row r is in the block of point r / 2048. -/
theorem proj_cover5 (i : S16384x64.Idx) :
    ∃ t : Fin cfg0.N, (cfg0.win 5).flush t = true ∧ i ∈ ((cfg0.win 5).blk t).view.set := by
  have hN : cfg0.N = 8 := N_0
  have hi0 : (i 0).val < 16384 := (i 0).isLt
  have hi1 : (i 1).val < 64 := (i 1).isLt
  let t : Fin cfg0.N := ⟨(i 0).val / 2048, by omega⟩
  have htv : t.val = (i 0).val / 2048 := rfl
  obtain ⟨-, -, -, -, -, -, -, -, -, -, e0, e1, -⟩ := proj_idx_facts t
  refine ⟨t, flush0_5 t, ?_⟩
  rw [proj_mem_blk5]
  intro a
  match a with
  | ⟨0, _⟩ => show win0_5.index t (0 : Fin 2) * 2048 ≤ (i 0).val ∧ (i 0).val < win0_5.index t (0 : Fin 2) * 2048 + 2048; rw [e0, htv]; omega
  | ⟨1, _⟩ => show win0_5.index t (1 : Fin 2) * 64 ≤ (i 1).val ∧ (i 1).val < win0_5.index t (1 : Fin 2) * 64 + 64; rw [e1]; omega

/-- So output window 5's array ends holding the projection. -/
theorem proj_array5 (c : Dev nD) :
    (dat0 (F := Ideal) V c).arrAt 5 cfg0.N = projArr (V c main_v0) (V c main_arg2) :=
  (dat0 (F := Ideal) V c).arrAt_eq_of_cover 5 (projArr (V c main_v0) (V c main_arg2)) (fun t _ => proj_flushed5_eq V c t) proj_cover5

theorem proj_final5 (c : Dev nD) (row : Fin 16384) (e : Fin 64) :
    (dat0 (F := Ideal) V c).arrAt 5 cfg0.N (ix2 row e)
      = ∑ d : Fin 512, Cert.Spec.clip (V c main_v0 (ix2 row d)) * V c main_arg2 (ix2 d e) := by
  rw [proj_array5]
  rfl

/-! ## Output window 6 -/

/-- What point `t` writes back to output window 6's array is block `t` of the projection by the third
    weight matrix: the body's payload at (p, e) is the contraction of the clipped row p of its activation block,
    which is row 2048 t + p of the activations, with column e of the whole weight matrix. -/
theorem proj_flushed6_eq (c : Dev nD) (t : Fin cfg0.N) :
    (dat0 (F := Ideal) V c).flushed 6 t
      = ((cfg0.win 6).blk t).view.read (Elt Ideal) (projArr (V c main_v0) (V c main_arg3)) := by
  show (cfg0.win 6).cut (grid0.coords t) ((dat0 (F := Ideal) V c).after 6 t) = _
  rw [after0_6]
  unfold projOut6
  rw [View.canon_unit_zero proj_hz]
  simp only [View.ld_unit_zero (S := S2048x512) proj_hz, View.ld_unit_zero (S := S512x64) proj_hz]
  obtain ⟨-, -, -, -, -, -, -, -, -, -, -, -, e0, e1⟩ := proj_idx_facts t
  have hN : cfg0.N = 8 := N_0
  have ht : t.val < 8 := by have := t.isLt; omega
  funext y
  obtain ⟨p, e, rfl⟩ : ∃ (p : Fin 2048) (e : Fin 64), y = ix2 p e := ⟨y 0, y 1, eq_ix2 y⟩
  show k0_pay4 (F := Ideal) (iblk0 V c 0 t) (iblk0 V c 3 t) (ix2 p e)
    = projArr (V c main_v0) (V c main_arg3) (((cfg0.win 6).blk t).view.emb (ix2 p e))
  have hemb : ((cfg0.win 6).blk t).view.emb (ix2 p e) = (ix2 (⟨t.val * 2048 + p.val, by omega⟩ : Fin 16384) e : S16384x64.Idx) := by
    funext a
    apply Fin.ext
    match a with
    | ⟨0, _⟩ => show win0_6.index t (0 : Fin 2) * 2048 + 1 * p.val = t.val * 2048 + p.val; rw [e0]; omega
    | ⟨1, _⟩ => show win0_6.index t (1 : Fin 2) * 64 + 1 * e.val = e.val; rw [e1]; omega
  rw [hemb, projArr_ix2]
  refine (pay_proj4 (iblk0 V c 0 t) (iblk0 V c 3 t) p e).trans ?_
  unfold projAt
  refine Finset.sum_congr rfl fun d _ => ?_
  rw [proj_xblk_apply V c t p d ⟨t.val * 2048 + p.val, by omega⟩ rfl, proj_w3blk_apply V c t d e]

/-- An index of the array is in point `t`'s block iff each coordinate is in the block's range on its axis. -/
theorem proj_mem_blk6 (t : Fin cfg0.N) (i : S16384x64.Idx) :
    i ∈ ((cfg0.win 6).blk t).view.set ↔ ∀ a : Fin 2, win0_6.index t a * S2048x64.size a ≤ (i a).val ∧ (i a).val < win0_6.index t a * S2048x64.size a + S2048x64.size a := by
  show i ∈ ((View.whole main_v1_2).slice (win0_6.rect t)).set ↔ _
  rw [View.set_slice_whole, Rect.mem_set_unit]
  exact Iff.rfl

/-- Every index of the array is in some point's block: row r is in the block of point r / 2048. -/
theorem proj_cover6 (i : S16384x64.Idx) :
    ∃ t : Fin cfg0.N, (cfg0.win 6).flush t = true ∧ i ∈ ((cfg0.win 6).blk t).view.set := by
  have hN : cfg0.N = 8 := N_0
  have hi0 : (i 0).val < 16384 := (i 0).isLt
  have hi1 : (i 1).val < 64 := (i 1).isLt
  let t : Fin cfg0.N := ⟨(i 0).val / 2048, by omega⟩
  have htv : t.val = (i 0).val / 2048 := rfl
  obtain ⟨-, -, -, -, -, -, -, -, -, -, -, -, e0, e1⟩ := proj_idx_facts t
  refine ⟨t, flush0_6 t, ?_⟩
  rw [proj_mem_blk6]
  intro a
  match a with
  | ⟨0, _⟩ => show win0_6.index t (0 : Fin 2) * 2048 ≤ (i 0).val ∧ (i 0).val < win0_6.index t (0 : Fin 2) * 2048 + 2048; rw [e0, htv]; omega
  | ⟨1, _⟩ => show win0_6.index t (1 : Fin 2) * 64 ≤ (i 1).val ∧ (i 1).val < win0_6.index t (1 : Fin 2) * 64 + 64; rw [e1]; omega

/-- So output window 6's array ends holding the projection. -/
theorem proj_array6 (c : Dev nD) :
    (dat0 (F := Ideal) V c).arrAt 6 cfg0.N = projArr (V c main_v0) (V c main_arg3) :=
  (dat0 (F := Ideal) V c).arrAt_eq_of_cover 6 (projArr (V c main_v0) (V c main_arg3)) (fun t _ => proj_flushed6_eq V c t) proj_cover6

theorem proj_final6 (c : Dev nD) (row : Fin 16384) (e : Fin 64) :
    (dat0 (F := Ideal) V c).arrAt 6 cfg0.N (ix2 row e)
      = ∑ d : Fin 512, Cert.Spec.clip (V c main_v0 (ix2 row d)) * V c main_arg3 (ix2 d e) := by
  rw [proj_array6]
  rfl

end Cert.KernelIdeal.HandValue

end
-- ==== Proof.KIAttnValue.lean ====
/-
  What the attention region leaves in its output array, at the ideal instance. The accumulator after grid point n
  (batch n / 16, row block (n / 4) mod 4, key tile n mod 4) holds, at row r and feature u, the sum over the key tiles
  0 … n mod 4 of Σ_j sigmoid(q_row · k_(tile, j)) · v_(tile, j, u): by induction on n, each point adding its tile's term to
  what the point before left (the first tile to the zero fill). At a last key tile the output block is the accumulator
  copied out, so its row holds all four tiles' terms, which is the sum over the whole key axis (4096 = 4 · 1024).
  The output's blocks tile the array, so the array ends at that function of the three projected arrays.
-/
import proofs.«140186_j41360535061095_1_alg».proof.Proof.KIAttnBody
import proofs.«140186_j41360535061095_1_alg».proof.Proof.KIPayload
import proofs.«140186_j41360535061095_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's pieces as payloads -/

theorem hz2 : (![0, 0] : Fin S1024x64.rank → Nat) = fun _ => 0 := by funext a; fin_cases a <;> rfl
theorem hz3 : (![0, 0, 0] : Fin S1x1024x64.rank → Nat) = fun _ => 0 := by funext a; fin_cases a <;> rfl

/-- At a middle key tile the accumulator ends at the accumulate payload of the three blocks and what it held. -/
theorem sout1_B_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i)
    (x0 x1 x2 : Vec F S1x1024x64 .bf16) (xs0 : Vec F S1024x64 .f32) :
    sout1_B c i arg3 harg3 arg4 harg4 arg5 harg5 arg6 harg6 arg7 harg7 hc0 hc1 x0 x1 x2 xs0 = k1_pay2 x0 x1 x2 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  rw [View.canon_unit_zero hz2]
  simp only [View.readAt_eq_ld, Memref.IsWhole.read_unread, View.ld_unit_zero (S := S1x1024x64) hz3, View.ld_unit_zero (S := S1024x64) hz2]

/-- At a first key tile it ends at the accumulate payload over the zero fill (the load after the fill reads the fill). -/
theorem sout1_A_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i)
    (x0 x1 x2 : Vec F S1x1024x64 .bf16) :
    sout1_A c i arg3 harg3 arg4 harg4 arg5 harg5 arg6 harg6 arg7 harg7 hc0 hc1 x0 x1 x2 = k1_pay2 x0 x1 x2 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  rw [View.canon_cons_unit_zero hz2]
  sl_unfold_run_names
  rw [View.readCov_unit_zero arg7.view hz2]
  simp only [View.readAt_eq_ld, Memref.IsWhole.read_unread, View.ld_unit_zero (S := S1x1024x64) hz3, View.ld_unit_zero (S := S1024x64) hz2]

/-- At the last key tile likewise, -/
theorem sout1_C_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 x1 x2 : Vec F S1x1024x64 .bf16) (xs0 : Vec F S1024x64 .f32) :
    sout1_C c i arg3 harg3 arg4 harg4 arg5 harg5 arg6 harg6 arg7 harg7 hc0 hc1 x0 x1 x2 xs0 = k1_pay2 x0 x1 x2 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_run_names
  rw [View.canon_unit_zero hz2]
  simp only [View.readAt_eq_ld, Memref.IsWhole.read_unread, View.ld_unit_zero (S := S1x1024x64) hz3, View.ld_unit_zero (S := S1024x64) hz2]

/-- and the output block is the accumulator copied out (the load after the store reads what was stored). -/
theorem out1_C_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 x1 x2 : Vec F S1x1024x64 .bf16) (xs0 : Vec F S1024x64 .f32) :
    out1_C c i arg3 harg3 arg4 harg4 arg5 harg5 arg6 harg6 arg7 harg7 hc0 hc1 x0 x1 x2 xs0 = k1_pay3 (k1_pay2 x0 x1 x2 xs0) := by
  unfold out1_C
  rw [View.read_writes_eq_canon _ _ _ (cover1_C c i arg3 harg3 arg4 harg4 arg5 harg5 arg6 harg6 arg7 harg7 hc0 hc1 x0 x1 x2 xs0)]
  unfold kernelRun1_C
  dsimp only
  rw [View.canon_unit_zero hz3]
  sl_unfold_run_names
  rw [View.readCov_unit_zero arg7.view hz2]
  simp only [View.readAt_eq_ld, Memref.IsWhole.read_unread, View.ld_unit_zero (S := S1x1024x64) hz3, View.ld_unit_zero (S := S1024x64) hz2]

end Cert.KernelIdeal.Hand

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

/-! ## The payloads' index lemmas with every term an extended real -/

theorem pay_acc' (q k v : S1x1024x64.Idx → EReal) (a : S1024x64.Idx → EReal) (r : Fin 1024) (u : Fin 64) :
    (k1_pay2 (F := Ideal) q k v a (ix2 r u) : EReal)
      = a (ix2 r u) + ∑ j : Fin 1024, Ideal.logistic (∑ e : Fin 64, q (ix3 (0 : Fin 1) r e) * k (ix3 (0 : Fin 1) j e)) * v (ix3 (0 : Fin 1) j u) :=
  pay_acc q k v a r u
theorem pay_zero' (r : Fin 1024) (u : Fin 64) : (k1_pay1 (F := Ideal) (ix2 r u) : EReal) = 0 := pay_zero r u
theorem pay_out' (a : S1024x64.Idx → EReal) (r : Fin 1024) (u : Fin 64) :
    (k1_pay3 (F := Ideal) a (ix3 (0 : Fin 1) r u) : EReal) = a (ix2 r u) := pay_out a r u

variable (V : (c : Dev nD) → (b : Ref sig .tc) → Buf (Elt Ideal) ((c : Thread nD τ).loc b))

/-! ## The arrays and blocks as functions into the extended reals -/

/-- The three projected arrays as the attention region finds them (queries, keys, values). -/
def arrQ (c : Dev nD) : S4x4096x64.Idx → EReal := V c main_v2
def arrK (c : Dev nD) : S4x4096x64.Idx → EReal := V c main_v3
def arrV (c : Dev nD) : S4x4096x64.Idx → EReal := V c main_v4
/-- Their blocks at grid point `t`. -/
def blkQ (c : Dev nD) (t : Fin cfg1.N) : S1x1024x64.Idx → EReal := iblk1 V c 0 t
def blkK (c : Dev nD) (t : Fin cfg1.N) : S1x1024x64.Idx → EReal := iblk1 V c 1 t
def blkV (c : Dev nD) (t : Fin cfg1.N) : S1x1024x64.Idx → EReal := iblk1 V c 2 t

/-! ## The windows' block indices over the 64 grid points -/

theorem idx_facts1 : ∀ t : Fin cfg1.N,
    win1_0.index t (0 : Fin 3) = t.val / 16 ∧ win1_0.index t (1 : Fin 3) = (t.val / 4) % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val % 4 ∧ win1_2.index t (2 : Fin 3) = 0
    ∧ win1_3.index t (0 : Fin 3) = t.val / 16 ∧ win1_3.index t (1 : Fin 3) = (t.val / 4) % 4 ∧ win1_3.index t (2 : Fin 3) = 0 :=
  (by decide +kernel : ∀ t : Fin grid1.N, _)

theorem tlt (t : Fin cfg1.N) : t.val < 64 := lt_of_lt_of_eq t.isLt (show cfg1.N = 64 from N_1)

/-! ## The blocks read off the arrays -/

/-- The query block at point `t`: rows (t/4 mod 4)·1024 … of batch t/16. -/
theorem qblk_at (c : Dev nD) (t : Fin cfg1.N) (r : Fin 1024) (e : Fin 64) :
    blkQ V c t (ix3 (0 : Fin 1) r e)
      = arrQ V c (ix3 (⟨(t.val / 16) % 4, Nat.mod_lt _ (by decide)⟩ : Fin 4) (⟨(((t.val / 4) % 4) * 1024 + r.val) % 4096, Nat.mod_lt _ (by decide)⟩ : Fin 4096) e) := by
  obtain ⟨e0, e1, e2, -⟩ := idx_facts1 t
  have ht := tlt t
  show arrQ V c (((cfg1.win 0).blk t).view.emb (ix3 (0 : Fin 1) r e)) = _
  refine congrArg _ ?_
  funext a; apply Fin.ext
  match a with
  | ⟨0, _⟩ => show win1_0.index t (0 : Fin 3) * 1 + 1 * (0 : Nat) = (t.val / 16) % 4; omega
  | ⟨1, _⟩ => show win1_0.index t (1 : Fin 3) * 1024 + 1 * r.val = (((t.val / 4) % 4) * 1024 + r.val) % 4096; have := r.isLt; omega
  | ⟨2, _⟩ => show win1_0.index t (2 : Fin 3) * 64 + 1 * e.val = e.val; omega

/-- The key block at point `t`: rows (t mod 4)·1024 … of batch t/16. -/
theorem kblk_at (c : Dev nD) (t : Fin cfg1.N) (j : Fin 1024) (e : Fin 64) :
    blkK V c t (ix3 (0 : Fin 1) j e)
      = arrK V c (ix3 (⟨(t.val / 16) % 4, Nat.mod_lt _ (by decide)⟩ : Fin 4) (⟨((t.val % 4) % 4) * 1024 + j.val, by have := j.isLt; omega⟩ : Fin 4096) e) := by
  obtain ⟨-, -, -, e0, e1, e2, -⟩ := idx_facts1 t
  have ht := tlt t
  show arrK V c (((cfg1.win 1).blk t).view.emb (ix3 (0 : Fin 1) j e)) = _
  refine congrArg _ ?_
  funext a; apply Fin.ext
  match a with
  | ⟨0, _⟩ => show win1_1.index t (0 : Fin 3) * 1 + 1 * (0 : Nat) = (t.val / 16) % 4; omega
  | ⟨1, _⟩ => show win1_1.index t (1 : Fin 3) * 1024 + 1 * j.val = ((t.val % 4) % 4) * 1024 + j.val; omega
  | ⟨2, _⟩ => show win1_1.index t (2 : Fin 3) * 64 + 1 * e.val = e.val; omega

/-- The value block at point `t`: the same rows of the third projection. -/
theorem vblk_at (c : Dev nD) (t : Fin cfg1.N) (j : Fin 1024) (u : Fin 64) :
    blkV V c t (ix3 (0 : Fin 1) j u)
      = arrV V c (ix3 (⟨(t.val / 16) % 4, Nat.mod_lt _ (by decide)⟩ : Fin 4) (⟨((t.val % 4) % 4) * 1024 + j.val, by have := j.isLt; omega⟩ : Fin 4096) u) := by
  obtain ⟨-, -, -, -, -, -, e0, e1, e2, -⟩ := idx_facts1 t
  have ht := tlt t
  show arrV V c (((cfg1.win 2).blk t).view.emb (ix3 (0 : Fin 1) j u)) = _
  refine congrArg _ ?_
  funext a; apply Fin.ext
  match a with
  | ⟨0, _⟩ => show win1_2.index t (0 : Fin 3) * 1 + 1 * (0 : Nat) = (t.val / 16) % 4; omega
  | ⟨1, _⟩ => show win1_2.index t (1 : Fin 3) * 1024 + 1 * j.val = ((t.val % 4) % 4) * 1024 + j.val; omega
  | ⟨2, _⟩ => show win1_2.index t (2 : Fin 3) * 64 + 1 * u.val = u.val; omega

/-! ## One key tile's term, and the accumulator after each point -/

/-- Key tile `kv`'s contribution to row `sn` of batch `bn` at feature `u` (the numbers reduced to their ranges). -/
def tileTerm (c : Dev nD) (bn sn : ℕ) (u : Fin 64) (kv : ℕ) : EReal :=
  ∑ j : Fin 1024, Ideal.logistic (∑ e : Fin 64,
      arrQ V c (ix3 (⟨bn % 4, Nat.mod_lt _ (by decide)⟩ : Fin 4) (⟨sn % 4096, Nat.mod_lt _ (by decide)⟩ : Fin 4096) e)
        * arrK V c (ix3 (⟨bn % 4, Nat.mod_lt _ (by decide)⟩ : Fin 4) (⟨(kv % 4) * 1024 + j.val, by have := j.isLt; omega⟩ : Fin 4096) e))
    * arrV V c (ix3 (⟨bn % 4, Nat.mod_lt _ (by decide)⟩ : Fin 4) (⟨(kv % 4) * 1024 + j.val, by have := j.isLt; omega⟩ : Fin 4096) u)

/-- The body's tile sum at point `t`, over the point's three blocks, is that term. -/
theorem body_term (c : Dev nD) (t : Fin cfg1.N) (r : Fin 1024) (u : Fin 64) :
    (∑ j : Fin 1024, Ideal.logistic (∑ e : Fin 64, blkQ V c t (ix3 (0 : Fin 1) r e) * blkK V c t (ix3 (0 : Fin 1) j e))
        * blkV V c t (ix3 (0 : Fin 1) j u))
      = tileTerm V c (t.val / 16) (((t.val / 4) % 4) * 1024 + r.val) u (t.val % 4) := by
  unfold tileTerm
  refine Finset.sum_congr rfl fun j _ => ?_
  rw [vblk_at V c t j u]
  refine congrArg (fun x => Ideal.logistic x * _) ?_
  refine Finset.sum_congr rfl fun e _ => ?_
  rw [qblk_at V c t r e, kblk_at V c t j e]

/-- At a first key tile the accumulator is that tile's term alone (the zero fill adds nothing). -/
theorem acc_first (c : Dev nD) (t : Fin cfg1.N) (h0 : t.val % 4 = 0) (r : Fin 1024) (u : Fin 64) :
    ((outsAt1 V c t.val t.isLt).2 (ix2 r u) : EReal)
      = ∑ kv ∈ Finset.range (t.val % 4 + 1), tileTerm V c (t.val / 16) (((t.val / 4) % 4) * 1024 + r.val) u kv := by
  have h1 : ¬ t.val % 4 = 3 := by omega
  rw [outsAt1_A V c t h0 h1]
  dsimp only
  rw [sout1_A_eq]
  refine (pay_acc' (blkQ V c t) (blkK V c t) (blkV V c t) (k1_pay1 (F := Ideal)) r u).trans ?_
  rw [pay_zero', zero_add, body_term V c t r u, h0]
  simp only [zero_add, Finset.sum_range_one]

/-- At a later key tile it is what the point before left plus this tile's term. -/
theorem acc_next (c : Dev nD) (t : Fin cfg1.N) (h0 : ¬ t.val % 4 = 0)
    (hprev : ∀ (r : Fin 1024) (u : Fin 64), ((outsAt1 V c (t.val - 1) (Nat.lt_of_le_of_lt (Nat.sub_le _ _) t.isLt)).2 (ix2 r u) : EReal)
      = ∑ kv ∈ Finset.range ((t.val - 1) % 4 + 1), tileTerm V c ((t.val - 1) / 16) ((((t.val - 1) / 4) % 4) * 1024 + r.val) u kv)
    (r : Fin 1024) (u : Fin 64) :
    ((outsAt1 V c t.val t.isLt).2 (ix2 r u) : EReal)
      = ∑ kv ∈ Finset.range (t.val % 4 + 1), tileTerm V c (t.val / 16) (((t.val / 4) % 4) * 1024 + r.val) u kv := by
  have ht := tlt t
  have hb : (t.val - 1) / 16 = t.val / 16 := by omega
  have hq : ((t.val - 1) / 4) % 4 = (t.val / 4) % 4 := by omega
  have hk : t.val % 4 = (t.val - 1) % 4 + 1 := by omega
  by_cases h1 : t.val % 4 = 3
  · rw [outsAt1_C V c t h0 h1]
    dsimp only
    rw [sout1_C_eq]
    refine (pay_acc' (blkQ V c t) (blkK V c t) (blkV V c t) _ r u).trans ?_
    rw [hprev r u, body_term V c t r u, hb, hq, hk]
    exact (Finset.sum_range_succ _ _).symm
  · rw [outsAt1_B V c t h0 h1]
    dsimp only
    rw [sout1_B_eq]
    refine (pay_acc' (blkQ V c t) (blkK V c t) (blkV V c t) _ r u).trans ?_
    rw [hprev r u, body_term V c t r u, hb, hq, hk]
    exact (Finset.sum_range_succ _ _).symm

/-- THE ACCUMULATOR after point `t`: the key tiles 0 … t mod 4 of the point's row block, summed. -/
theorem acc_at (c : Dev nD) : ∀ (n : ℕ) (t : Fin cfg1.N), t.val = n → ∀ (r : Fin 1024) (u : Fin 64),
    ((outsAt1 V c t.val t.isLt).2 (ix2 r u) : EReal)
      = ∑ kv ∈ Finset.range (t.val % 4 + 1), tileTerm V c (t.val / 16) (((t.val / 4) % 4) * 1024 + r.val) u kv := by
  intro n
  induction n with
  | zero => intro t ht r u; exact acc_first V c t (by omega) r u
  | succ n ih =>
    intro t ht r u
    by_cases h0 : t.val % 4 = 0
    · exact acc_first V c t h0 r u
    · refine acc_next V c t h0 (fun r' u' => ?_) r u
      exact ih ⟨t.val - 1, Nat.lt_of_le_of_lt (Nat.sub_le _ _) t.isLt⟩ (by show t.val - 1 = n; omega) r' u'

/-! ## The whole array -/

/-- The attention output as one function of the three projected arrays. -/
def attnG (c : Dev nD) : S4x4096x64.Idx → EReal := fun i =>
  ∑ t : Fin 4096, Ideal.logistic (∑ e : Fin 64, arrQ V c (ix3 (i 0) (i 1) e) * arrK V c (ix3 (i 0) t e))
    * arrV V c (ix3 (i 0) t (i 2))

/-- All four tiles' terms are the sum over the whole key axis. -/
theorem four_tiles (c : Dev nD) (bn sn : ℕ) (u : Fin 64) :
    ∑ kv ∈ Finset.range 4, tileTerm V c bn sn u kv
      = attnG V c (ix3 (⟨bn % 4, Nat.mod_lt _ (by decide)⟩ : Fin 4) (⟨sn % 4096, Nat.mod_lt _ (by decide)⟩ : Fin 4096) u) := by
  unfold attnG
  rw [Cert.Spec.sum_tiles, Finset.sum_range]
  refine Finset.sum_congr rfl fun kv _ => ?_
  have hkv : ∀ j : Fin 1024, (⟨(kv.val % 4) * 1024 + j.val, by have := j.isLt; omega⟩ : Fin 4096) = ⟨kv.val * 1024 + j.val, by have := j.isLt; have := kv.isLt; omega⟩ :=
    fun j => Fin.ext (by show (kv.val % 4) * 1024 + j.val = kv.val * 1024 + j.val; have := kv.isLt; omega)
  unfold tileTerm
  simp only [hkv]

theorem attn_mem_blk (t : Fin cfg1.N) (i : S4x4096x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v5).slice (win1_3.rect t)).set ↔ _
  rw [View.set_slice_whole, Rect.mem_set_unit]
  exact Iff.rfl

/-- Every index of the output array lies in the block of the last-key-tile point of its batch and row block. -/
theorem attn_cover (i : S4x4096x64.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  obtain ⟨t, htv⟩ : ∃ t : Fin cfg1.N, t.val = 16 * (i 0).val + 4 * ((i 1).val / 1024) + 3 :=
    ⟨⟨16 * (i 0).val + 4 * ((i 1).val / 1024) + 3, by rw [show cfg1.N = 64 from N_1]; omega⟩, rfl⟩
  refine ⟨t, (flush1_3 t).mpr (by omega), ?_⟩
  rw [attn_mem_blk]
  obtain ⟨-, -, -, -, -, -, -, -, -, e0, e1, e2⟩ := idx_facts1 t
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- What a last-key-tile point writes back is its block of that function. -/
theorem attn_flushed (c : Dev nD) (t : Fin cfg1.N) (hf : (cfg1.win 3).flush t = true) :
    (dat1 (F := Ideal) V c).flushed 3 t = ((cfg1.win 3).blk t).view.read (Elt Ideal) (attnG V c) := by
  have h1 : t.val % 4 = 3 := (flush1_3 t).mp hf
  have h0 : ¬ t.val % 4 = 0 := by omega
  have ht := tlt t
  obtain ⟨-, -, -, -, -, -, -, -, -, e0, e1, e2⟩ := idx_facts1 t
  show (cfg1.win 3).cut (grid1.coords t) ((dat1 V c).after 3 t) = _
  rw [after1_3]
  funext y
  obtain ⟨y0, r, u, rfl⟩ : ∃ (y0 : Fin 1) (r : Fin 1024) (u : Fin 64), y = ix3 y0 r u := ⟨y 0, y 1, y 2, eq_ix3 y⟩
  obtain rfl : y0 = 0 := Subsingleton.elim _ _
  have hacc := acc_at V c t.val t rfl r u
  rw [outsAt1_C V c t h0 h1] at hacc
  dsimp only at hacc
  rw [sout1_C_eq] at hacc
  show ((outsAt1 V c t.val t.isLt).1 (ix3 (0 : Fin 1) r u) : EReal) = attnG V c (((cfg1.win 3).blk t).view.emb (ix3 (0 : Fin 1) r u))
  rw [outsAt1_C V c t h0 h1]
  dsimp only
  rw [out1_C_eq]
  refine (pay_out' _ r u).trans ?_
  rw [hacc, h1]
  refine (four_tiles V c (t.val / 16) (((t.val / 4) % 4) * 1024 + r.val) u).trans ?_
  refine congrArg _ ?_
  funext a; apply Fin.ext
  match a with
  | ⟨0, _⟩ => show (t.val / 16) % 4 = win1_3.index t (0 : Fin 3) * 1 + 1 * (0 : Nat); omega
  | ⟨1, _⟩ => show (((t.val / 4) % 4) * 1024 + r.val) % 4096 = win1_3.index t (1 : Fin 3) * 1024 + 1 * r.val; have := r.isLt; omega
  | ⟨2, _⟩ => show u.val = win1_3.index t (2 : Fin 3) * 64 + 1 * u.val; omega

/-- THE ARRAY the attention region leaves. -/
theorem attn_array (c : Dev nD) : (dat1 (F := Ideal) V c).arrAt 3 cfg1.N = attnG V c :=
  (dat1 (F := Ideal) V c).arrAt_eq_of_cover 3 (attnG V c) (fun t hf => attn_flushed V c t hf) attn_cover

theorem attn_final (c : Dev nD) (b : Fin 4) (s : Fin 4096) (u : Fin 64) :
    ((dat1 (F := Ideal) V c).arrAt 3 cfg1.N : S4x4096x64.Idx → EReal) (ix3 b s u)
      = ∑ t : Fin 4096, Ideal.logistic (∑ e : Fin 64, arrQ V c (ix3 b s e) * arrK V c (ix3 b t e)) * arrV V c (ix3 b t u) := by
  rw [attn_array]
  rfl

end Cert.KernelIdeal.HandValue

end
-- ==== Proof.KIValue.lean ====
/-
  The kernel program's result array is the specification's function of the four argument arrays.

  Between the launch and the result lie two reshapes that only regroup rows. The input [4, 4096, 512, 1] is read
  by the projection region as 16384 rows of 512 features: row b * 4096 + s is batch b's row s. The three
  projections come back as [16384, 64] and are regrouped as [4, 4096, 64] in the same way. With the two regions'
  results read at an index — each projection entry the contraction of a clipped row with a weight column, each
  result entry the sum over all key rows of the logistic weight times the value projection — the two sides are the
  same sums term by term.
-/
import proofs.«140186_j41360535061095_1_alg».proof.Proof.KIRun
import proofs.«140186_j41360535061095_1_alg».proof.Proof.KIProjValue
import proofs.«140186_j41360535061095_1_alg».proof.Proof.KIAttnValue
import proofs.«140186_j41360535061095_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The two regroupings of rows, read at an index -/

/-- [4, 4096, 512, 1] read as [16384, 512]: row b * 4096 + s, feature d, is entry (b, s, d, 0). -/
theorem rows_in {α : Type} (x : S4x4096x512x1.Idx → α) (h : S4x4096x512x1.ShapeCasts S16384x512)
    (b : Fin 4) (s : Fin 4096) (d : Fin 512) :
    shapeCast S16384x512 x h (ix2 (⟨b.val * 4096 + s.val, by omega⟩ : Fin 16384) d) = x (ix4 b s d (0 : Fin 1)) :=
  shapeCast_apply x h _ _ (by
    rw [Shape.rowMajor_val_four, Shape.rowMajor_val_two]
    show ((b.val * 4096 + s.val) * 512 + d.val) * 1 + 0 = (b.val * 4096 + s.val) * 512 + d.val
    omega)

/-- [16384, 64] read as [4, 4096, 64]: entry (b, s, e) is row b * 4096 + s, column e. -/
theorem rows_out {α : Type} (y : S16384x64.Idx → α) (h : S16384x64.ShapeCasts S4x4096x64)
    (b : Fin 4) (s : Fin 4096) (e : Fin 64) :
    shapeCast S4x4096x64 y h (ix3 b s e) = y (ix2 (⟨b.val * 4096 + s.val, by omega⟩ : Fin 16384) e) :=
  shapeCast_apply y h _ _ (by
    rw [Shape.rowMajor_val_two, Shape.rowMajor_val_three]
    rfl)

/-! ## What the projection region finds -/

/-- The rows the projection region reads are the launch input regrouped. -/
theorem V1_main_v0_eq (c : Dev nD) :
    (Hand.V1 (F := Ideal) m ρ c main_v0 : S16384x512.Idx → EReal)
      = shapeCast S16384x512 (m ((c : Thread nD τ).loc main_arg0) : S4x4096x512x1.Idx → EReal) shapeCasts_S4x4096x512x1_S16384x512 := by
  dsimp only [Hand.V1, Hand.W1, hostOps0]
  after_results
  rfl

theorem V1_main_v0 (c : Dev nD) (b : Fin 4) (s : Fin 4096) (d : Fin 512) :
    Hand.V1 (F := Ideal) m ρ c main_v0 (ix2 ⟨b.val * 4096 + s.val, by omega⟩ d) = m ((c : Thread nD τ).loc main_arg0) (ix4 b s d (0 : Fin 1)) :=
  (congrFun (V1_main_v0_eq m ρ c) _).trans (rows_in _ _ b s d)

/-- No host operation writes a weight matrix: the projection region finds each as launched. -/
theorem V1_main_arg1 (c : Dev nD) : Hand.V1 (F := Ideal) m ρ c main_arg1 = m ((c : Thread nD τ).loc main_arg1) :=
  StableHlo.after_of_writes_sub hostOps0 _ hostOps0_writes (by decide)
theorem V1_main_arg2 (c : Dev nD) : Hand.V1 (F := Ideal) m ρ c main_arg2 = m ((c : Thread nD τ).loc main_arg2) :=
  StableHlo.after_of_writes_sub hostOps0 _ hostOps0_writes (by decide)
theorem V1_main_arg3 (c : Dev nD) : Hand.V1 (F := Ideal) m ρ c main_arg3 = m ((c : Thread nD τ).loc main_arg3) :=
  StableHlo.after_of_writes_sub hostOps0 _ hostOps0_writes (by decide)

/-! ## What the attention region finds -/

theorem V3_main_v2_eq (c : Dev nD) :
    (Hand.V3 (F := Ideal) m ρ c main_v2 : S4x4096x64.Idx → EReal)
      = shapeCast S4x4096x64 ((dat0 (F := Ideal) (Hand.V1 m ρ) c).arrAt 4 cfg0.N : S16384x64.Idx → EReal) shapeCasts_S16384x64_S4x4096x64 := by
  rw [← W2_arr m ρ c 4]
  dsimp only [Hand.V3, Hand.W3, hostOps1]
  after_results
  rfl
theorem V3_main_v3_eq (c : Dev nD) :
    (Hand.V3 (F := Ideal) m ρ c main_v3 : S4x4096x64.Idx → EReal)
      = shapeCast S4x4096x64 ((dat0 (F := Ideal) (Hand.V1 m ρ) c).arrAt 5 cfg0.N : S16384x64.Idx → EReal) shapeCasts_S16384x64_S4x4096x64 := by
  rw [← W2_arr m ρ c 5]
  dsimp only [Hand.V3, Hand.W3, hostOps1]
  after_results
  rfl
theorem V3_main_v4_eq (c : Dev nD) :
    (Hand.V3 (F := Ideal) m ρ c main_v4 : S4x4096x64.Idx → EReal)
      = shapeCast S4x4096x64 ((dat0 (F := Ideal) (Hand.V1 m ρ) c).arrAt 6 cfg0.N : S16384x64.Idx → EReal) shapeCasts_S16384x64_S4x4096x64 := by
  rw [← W2_arr m ρ c 6]
  dsimp only [Hand.V3, Hand.W3, hostOps1]
  after_results
  rfl

/-- The query projections the attention region reads are the projection region's first result regrouped. -/
theorem V3_main_v2 (c : Dev nD) (b : Fin 4) (s : Fin 4096) (e : Fin 64) :
    Hand.V3 (F := Ideal) m ρ c main_v2 (ix3 b s e) = (dat0 (F := Ideal) (Hand.V1 m ρ) c).arrAt 4 cfg0.N (ix2 ⟨b.val * 4096 + s.val, by omega⟩ e) :=
  (congrFun (V3_main_v2_eq m ρ c) _).trans (rows_out _ _ b s e)
/-- The key projections: the second result regrouped. -/
theorem V3_main_v3 (c : Dev nD) (b : Fin 4) (s : Fin 4096) (e : Fin 64) :
    Hand.V3 (F := Ideal) m ρ c main_v3 (ix3 b s e) = (dat0 (F := Ideal) (Hand.V1 m ρ) c).arrAt 5 cfg0.N (ix2 ⟨b.val * 4096 + s.val, by omega⟩ e) :=
  (congrFun (V3_main_v3_eq m ρ c) _).trans (rows_out _ _ b s e)
/-- The value projections: the third result regrouped. -/
theorem V3_main_v4 (c : Dev nD) (b : Fin 4) (s : Fin 4096) (e : Fin 64) :
    Hand.V3 (F := Ideal) m ρ c main_v4 (ix3 b s e) = (dat0 (F := Ideal) (Hand.V1 m ρ) c).arrAt 6 cfg0.N (ix2 ⟨b.val * 4096 + s.val, by omega⟩ e) :=
  (congrFun (V3_main_v4_eq m ρ c) _).trans (rows_out _ _ b s e)

/-! ## The three projections as the specification's, and the result -/

theorem q_at (c : Dev nD) (b : Fin 4) (s : Fin 4096) (e : Fin 64) :
    @Eq EReal (Hand.V3 (F := Ideal) m ρ c main_v2 (ix3 b s e))
      (Cert.Spec.proj (m ((c : Thread nD τ).loc main_arg0)) (m ((c : Thread nD τ).loc main_arg1)) b s e) := by
  rw [V3_main_v2, proj_final4 (Hand.V1 m ρ) c]
  unfold Cert.Spec.proj
  refine Finset.sum_congr rfl fun d _ => ?_
  rw [V1_main_v0, V1_main_arg1]
theorem k_at (c : Dev nD) (b : Fin 4) (s : Fin 4096) (e : Fin 64) :
    @Eq EReal (Hand.V3 (F := Ideal) m ρ c main_v3 (ix3 b s e))
      (Cert.Spec.proj (m ((c : Thread nD τ).loc main_arg0)) (m ((c : Thread nD τ).loc main_arg2)) b s e) := by
  rw [V3_main_v3, proj_final5 (Hand.V1 m ρ) c]
  unfold Cert.Spec.proj
  refine Finset.sum_congr rfl fun d _ => ?_
  rw [V1_main_v0, V1_main_arg2]
theorem v_at (c : Dev nD) (b : Fin 4) (s : Fin 4096) (e : Fin 64) :
    @Eq EReal (Hand.V3 (F := Ideal) m ρ c main_v4 (ix3 b s e))
      (Cert.Spec.proj (m ((c : Thread nD τ).loc main_arg0)) (m ((c : Thread nD τ).loc main_arg3)) b s e) := by
  rw [V3_main_v4, proj_final6 (Hand.V1 m ρ) c]
  unfold Cert.Spec.proj
  refine Finset.sum_congr rfl fun d _ => ?_
  rw [V1_main_v0, V1_main_arg3]

/-- The kernel program's result array, as the attention region leaves it, is the specification's function of the
    launch arguments. -/
theorem kernel_is_G (c : Dev nD) :
    W4 (F := Ideal) m ρ c (Proc.devRef .tc main_v5)
      = Cert.Spec.G (m ((c : Thread nD τ).loc main_arg0)) (m ((c : Thread nD τ).loc main_arg1))
          (m ((c : Thread nD τ).loc main_arg2)) (m ((c : Thread nD τ).loc main_arg3)) := by
  funext i
  obtain ⟨b, s, u, rfl⟩ : ∃ (b : Fin 4) (s : Fin 4096) (u : Fin 64), i = ix3 b s u := ⟨i 0, i 1, i 2, eq_ix3 i⟩
  refine (congrFun (W4_arr m ρ c 3) (ix3 b s u)).trans ?_
  refine (attn_final (Hand.V3 m ρ) c b s u).trans ?_
  rw [Cert.Spec.G_ix3]
  unfold Cert.Spec.Gat
  unfold arrQ arrK arrV
  show (_ : EReal) = _
  refine Finset.sum_congr rfl fun t _ => ?_
  unfold Cert.Spec.score
  rw [v_at]
  refine congrArg (fun z : EReal => Ideal.logistic z * _) ?_
  refine Finset.sum_congr rfl fun e _ => ?_
  rw [q_at, k_at]

end Cert.KernelIdeal.HandValue

end
-- ==== Proof.RefValue.lean ====
/-
  The reference program's result, read one element at a time, is the specification's function.

  The reference clips the input (a minimum with the broadcast 1 of a maximum with the broadcast -1), drops the
  trailing unit axis, contracts each row with the three weight matrices, takes the inner products of query and
  key projections within a batch, applies 1 / (1 + exp(-s)) to each of them, and contracts the resulting weights
  with the value projections over the key axis. Each step below reads one of these stages at an index built
  from its coordinates; the expression 1 / (1 + exp(-s)), with the two ones given as the f32 word of 1, is the
  logistic function of the extended reals by definition.
-/
import proofs.«140186_j41360535061095_1_alg».proof.Proof.Spec
import proofs.«140186_j41360535061095_1_alg».proof.Proof.Gen.ReferenceIdeal.Read
import Idealize.ShloMosaic.Lib.IdealHost

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Spec

/-- The clipped input at an index: min(1, max(-1, x)), the bounds broadcast from scalars. -/
theorem clip_at (x0 : (⟨S4x4096x512x1, .f32⟩ : BufTy).Contents (Elt Ideal)) (j : S4x4096x512x1.Idx) :
    val_main_v0 (F := Ideal) x0 j = clip (x0 j) := by
  rw [val_main_v0_apply, val_main_call0_v4_apply, val_main_call0_v3_apply, val_main_cst_0_apply,
    val_main_call0_v2_apply, val_main_call0_v1_apply, val_main_call0_v0_apply, val_main_cst_apply]
  rfl

/-- Dropping the trailing unit axis: entry (b, s, d) of the reshaped array is entry (b, s, d, 0) of the clipped one. -/
theorem idx_v1 (b : Fin 4) (s : Fin 4096) (d : Fin 512) :
    idx_main_v1 (ix3 b s d) = ix4 b s d (0 : Fin 1) := by
  have hb := b.isLt; have hs := s.isLt; have hd := d.isLt
  funext a
  refine Fin.ext ?_
  match a with
  | ⟨0, _⟩ => show ((b.val * 4096 + s.val) * 512 + d.val) / 2097152 = b.val; omega
  | ⟨1, _⟩ => show ((b.val * 4096 + s.val) * 512 + d.val) / 512 % 4096 = s.val; omega
  | ⟨2, _⟩ => show ((b.val * 4096 + s.val) * 512 + d.val) / 1 % 512 = d.val; omega
  | ⟨3, _⟩ => rfl

theorem v1_at (x0 : (⟨S4x4096x512x1, .f32⟩ : BufTy).Contents (Elt Ideal)) (b : Fin 4) (s : Fin 4096) (d : Fin 512) :
    val_main_v1 (F := Ideal) x0 (ix3 b s d) = clip (x0 (ix4 b s d (0 : Fin 1))) := by
  rw [val_main_v1_apply, clip_at, idx_v1]

/-- The query projection at (b, s, e). -/
theorem v2_at (x0 : (⟨S4x4096x512x1, .f32⟩ : BufTy).Contents (Elt Ideal)) (x1 : (⟨S512x64, .f32⟩ : BufTy).Contents (Elt Ideal))
    (b : Fin 4) (s : Fin 4096) (e : Fin 64) :
    val_main_v2 (F := Ideal) x0 x1 (ix3 b s e) = proj x0 x1 b s e := by
  rw [val_main_v2_apply]
  refine Finset.sum_congr rfl fun d _ => ?_
  have el : lidx_main_v2 (ix3 b s e) d = ix3 b s d := funext fun a => Fin.ext (by
    match a with | ⟨0, _⟩ => rfl | ⟨1, _⟩ => rfl | ⟨2, _⟩ => rfl)
  have er : ridx_main_v2 (ix3 b s e) d = ix2 d e := funext fun a => Fin.ext (by
    match a with | ⟨0, _⟩ => rfl | ⟨1, _⟩ => rfl)
  rw [el, er, v1_at]

/-- The key projection at (b, t, e). -/
theorem v3_at (x0 : (⟨S4x4096x512x1, .f32⟩ : BufTy).Contents (Elt Ideal)) (x2 : (⟨S512x64, .f32⟩ : BufTy).Contents (Elt Ideal))
    (b : Fin 4) (s : Fin 4096) (e : Fin 64) :
    val_main_v3 (F := Ideal) x0 x2 (ix3 b s e) = proj x0 x2 b s e := by
  rw [val_main_v3_apply]
  refine Finset.sum_congr rfl fun d _ => ?_
  have el : lidx_main_v3 (ix3 b s e) d = ix3 b s d := funext fun a => Fin.ext (by
    match a with | ⟨0, _⟩ => rfl | ⟨1, _⟩ => rfl | ⟨2, _⟩ => rfl)
  have er : ridx_main_v3 (ix3 b s e) d = ix2 d e := funext fun a => Fin.ext (by
    match a with | ⟨0, _⟩ => rfl | ⟨1, _⟩ => rfl)
  rw [el, er, v1_at]

/-- The value projection at (b, t, u). -/
theorem v4_at (x0 : (⟨S4x4096x512x1, .f32⟩ : BufTy).Contents (Elt Ideal)) (x3 : (⟨S512x64, .f32⟩ : BufTy).Contents (Elt Ideal))
    (b : Fin 4) (s : Fin 4096) (e : Fin 64) :
    val_main_v4 (F := Ideal) x0 x3 (ix3 b s e) = proj x0 x3 b s e := by
  rw [val_main_v4_apply]
  refine Finset.sum_congr rfl fun d _ => ?_
  have el : lidx_main_v4 (ix3 b s e) d = ix3 b s d := funext fun a => Fin.ext (by
    match a with | ⟨0, _⟩ => rfl | ⟨1, _⟩ => rfl | ⟨2, _⟩ => rfl)
  have er : ridx_main_v4 (ix3 b s e) d = ix2 d e := funext fun a => Fin.ext (by
    match a with | ⟨0, _⟩ => rfl | ⟨1, _⟩ => rfl)
  rw [el, er, v1_at]

/-- The inner product of the query projection of row s and the key projection of row t. -/
theorem v5_at (x0 : (⟨S4x4096x512x1, .f32⟩ : BufTy).Contents (Elt Ideal)) (x1 x2 : (⟨S512x64, .f32⟩ : BufTy).Contents (Elt Ideal))
    (b : Fin 4) (s t : Fin 4096) :
    val_main_v5 (F := Ideal) x0 x1 x2 (ix3 b s t) = ∑ e : Fin 64, proj x0 x1 b s e * proj x0 x2 b t e := by
  rw [val_main_v5_apply]
  refine Finset.sum_congr rfl fun e _ => ?_
  have el : lidx_main_v5 (ix3 b s t) e = ix3 b s e := funext fun a => Fin.ext (by
    match a with | ⟨0, _⟩ => rfl | ⟨1, _⟩ => rfl | ⟨2, _⟩ => rfl)
  have er : ridx_main_v5 (ix3 b s t) e = ix3 b t e := funext fun a => Fin.ext (by
    match a with | ⟨0, _⟩ => rfl | ⟨1, _⟩ => rfl | ⟨2, _⟩ => rfl)
  rw [el, er, v2_at, v3_at]

/-- The weight of key row t for query row s: 1 / (1 + exp(-inner product)), the logistic function. -/
theorem v11_at (x0 : (⟨S4x4096x512x1, .f32⟩ : BufTy).Contents (Elt Ideal)) (x1 x2 : (⟨S512x64, .f32⟩ : BufTy).Contents (Elt Ideal))
    (b : Fin 4) (s t : Fin 4096) :
    val_main_v11 (F := Ideal) x0 x1 x2 (ix3 b s t) = score x0 x1 x2 b s t := by
  rw [val_main_v11_apply, val_main_v10_apply, val_main_cst_2_apply, val_main_v9_apply, val_main_v8_apply,
    val_main_cst_1_apply, val_main_v7_apply, val_main_v6_apply, v5_at]
  simp only [score, Ideal.logistic, Ideal.hostDivf_def, Ideal.addf_def, Ideal.hostUnary_exp_def, Ideal.hostNegf_def,
    Ideal.negf_def, Ideal.ofBits_def, Ideal.ofBits_one_f32]

/-- The reference's result array is the specification's function of the four argument arrays. -/
theorem ref_is_G (x0 : (⟨Cert.ReferenceIdeal.S4x4096x512x1, .f32⟩ : BufTy).Contents (Elt Ideal))
    (x1 x2 x3 : (⟨Cert.ReferenceIdeal.S512x64, .f32⟩ : BufTy).Contents (Elt Ideal)) :
    Cert.ReferenceIdeal.Read.val_main_v12 (F := Ideal) x0 x1 x2 x3 = Cert.Spec.G x0 x1 x2 x3 := by
  funext i
  obtain ⟨b, s, u, rfl⟩ : ∃ (b : Fin 4) (s : Fin 4096) (u : Fin 64), i = ix3 b s u := ⟨i 0, i 1, i 2, eq_ix3 i⟩
  rw [val_main_v12_apply, G_ix3]
  refine Finset.sum_congr rfl fun t _ => ?_
  have el : lidx_main_v12 (ix3 b s u) t = ix3 b s t := funext fun a => Fin.ext (by
    match a with | ⟨0, _⟩ => rfl | ⟨1, _⟩ => rfl | ⟨2, _⟩ => rfl)
  have er : ridx_main_v12 (ix3 b s u) t = ix3 b t u := funext fun a => Fin.ext (by
    match a with | ⟨0, _⟩ => rfl | ⟨1, _⟩ => rfl | ⟨2, _⟩ => rfl)
  rw [el, er, v11_at, v4_at]

end Cert.ReferenceIdeal.RefValue

end
-- ==== Proof.RefRun.lean ====
/-
  The reference program's run: it terminates without a fault, leaves its four argument arrays as it found them,
  and its result array holds the specification's function of those arrays. The run itself is the generated one
  (every operation of the reference applied in order); what is added here is only that the composed term it ends
  with is the specification's function, index by index: the clamp, the three projections, the scores through the sigmoid
  and the weighted sum over the key axis.
-/
import proofs.«140186_j41360535061095_1_alg».proof.Proof.RefValue
import proofs.«140186_j41360535061095_1_alg».proof.Defs
import proofs.«140186_j41360535061095_1_alg».proof.Proof.Gen.ReferenceIdeal
import proofs.«140186_j41360535061095_1_alg».proof.Proof.Gen.ReferenceIdeal.Run
import proofs.«140186_j41360535061095_1_alg».proof.Proof.Gen.Pre_finite_inputs

noncomputable section

open Idealize.ShloMosaic Idealize.ShloMosaic.TcCoe Idealize.SL.Sem

namespace Cert.ReferenceIdeal.RefValue

/-- The reference runs to the end and its arguments end unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From any memory, the reference ends with its result array at the specification's function of the argument
    arrays it started from, and with those arrays unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v12)
        = Cert.Spec.G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans ((Cert.ReferenceIdeal.Read.val_main_v12_eq (F := Ideal) _ _ _ _).trans (ref_is_G _ _ _ _)), (h c).2⟩)
    (Cert.ReferenceIdeal.Value.run (F := Ideal) m' ρ')

end Cert.ReferenceIdeal.RefValue

end
-- ==== Proof.lean ====
/-
  The certificate's five claims.
  The kernel projects the clipped input with three weight matrices (rows of 2048 at a time), then, per batch and block
  of 1024 query rows, adds sigmoid(q kᵀ) v over four tiles of 1024 keys into an accumulator and copies it out at the
  last tile; the reference computes sigmoid(q kᵀ) v over all 4096 keys at once, with the sigmoid spelt 1 / (1 + e⁻ˢ).
  At the ideal instance both are ONE function of the four argument arrays (`Cert.Spec.G`): the clamp and the sigmoid
  are the same extended-real functions on both sides, a matrix product is a finite sum, and the kernel's four partial
  sums regroup the sum over the key axis (addition of extended reals is associative and commutative, so no
  finiteness of the inputs is used). The three frames: each program runs to the end, faults nowhere and leaves its
  four argument arrays as launched — for the two kernel programs by following the buffers through the reshape, the
  projection region, the three reshapes and the attention region; for the reference by its run. The idealized
  kernel is the kernel's own text read at the ideal instance: nothing was rewritten, so `preserves` holds trivially.
-/
import proofs.«140186_j41360535061095_1_alg».proof.Defs
import proofs.«140186_j41360535061095_1_alg».proof.Proof.Gen.Kernel
import proofs.«140186_j41360535061095_1_alg».proof.Proof.Gen.KernelIdeal
import proofs.«140186_j41360535061095_1_alg».proof.Proof.Gen.ReferenceIdeal
import proofs.«140186_j41360535061095_1_alg».proof.Proof.Gen.ReferenceIdeal.Run
import proofs.«140186_j41360535061095_1_alg».proof.Proof.Gen.ReferenceIdeal.Read
import proofs.«140186_j41360535061095_1_alg».proof.Proof.Gen.Pre_finite_inputs
import proofs.«140186_j41360535061095_1_alg».proof.Proof.KBRun
import proofs.«140186_j41360535061095_1_alg».proof.Proof.KIRun
import proofs.«140186_j41360535061095_1_alg».proof.Proof.KIValue
import proofs.«140186_j41360535061095_1_alg».proof.Proof.RefRun

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- At the ideal instance the kernel's result array and the reference's both end at `Cert.Spec.G` of the arguments. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run (Cert.KernelIdeal.defs (F := Ideal)) _ _).mono (fun r h c => ?_) (Cert.KernelIdeal.Hand.run_all (F := Ideal) m ρ)
    exact ⟨(h c _ (Cert.KernelIdeal.Hand.mem_uc Cert.KernelIdeal.main_v5 (by decide))).trans (Cert.KernelIdeal.HandValue.kernel_is_G m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c)⟩
  · refine (θ_run (Cert.ReferenceIdeal.defs (F := Ideal)) _ _).mono (fun r h c => ⟨(h c).1.trans ?_, (h c).2⟩)
      (Cert.ReferenceIdeal.RefValue.ref_run m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
